-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S128 .f32) (main_arg7 : FVec F S128x16 .f32) (main_arg8 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg7
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x16 .f32) (main_arg8 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S10000x1 : Shape := ⟨2, ![10000, 1]⟩
abbrev S1600000x128 : Shape := ⟨2, ![1600000, 128]⟩
abbrev S1x128 : Shape := ⟨2, ![1, 128]⟩
abbrev S100000x16 : Shape := ⟨2, ![100000, 16]⟩
abbrev S10000x16 : Shape := ⟨2, ![10000, 16]⟩
abbrev S1600000x16 : Shape := ⟨2, ![1600000, 16]⟩
abbrev S1x16 : Shape := ⟨2, ![1, 16]⟩

abbrev nBuf : Space → Nat
  | .hbm => 87
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x1, .f32⟩
  | .hbm, ⟨49, _⟩ => ⟨S1x128, .f32⟩
  | .hbm, ⟨50, _⟩ => ⟨S100000x128, .f32⟩
  | .hbm, ⟨51, _⟩ => ⟨S100000x1, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x1, .f32⟩
  | .hbm, ⟨67, _⟩ => ⟨S1x128, .f32⟩
  | .hbm, ⟨68, _⟩ => ⟨S100000x128, .f32⟩
  | .hbm, ⟨69, _⟩ => ⟨S100000x1, .f32⟩
  | .hbm, ⟨70, _⟩ => ⟨S100000x16, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x16, .f32⟩
  | .hbm, ⟨80, _⟩ => ⟨S_, .f32⟩
  | .hbm, ⟨81, _⟩ => ⟨S100000x16, .f32⟩
  | .hbm, ⟨82, _⟩ => ⟨S1600000x1, .i32⟩
  | .hbm, ⟨83, _⟩ => ⟨S100000x16, .f32⟩
  | .hbm, ⟨84, _⟩ => ⟨S100000x1, .f32⟩
  | .hbm, ⟨85, _⟩ => ⟨S1x16, .f32⟩
  | .hbm, ⟨86, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x1, .f32⟩
  | .local _ .vmem, ⟨17, _⟩ => ⟨S10000x1, .f32⟩
  | .local _ .vmem, ⟨18, _⟩ => ⟨S128x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S10000x1, .f32⟩
  | .local _ .vmem, ⟨31, _⟩ => ⟨S10000x1, .f32⟩
  | .local _ .vmem, ⟨32, _⟩ => ⟨S128x16, .f32⟩
  | .local _ .vmem, ⟨33, _⟩ => ⟨S10000x16, .f32⟩
  | .local _ .vmem, ⟨34, _⟩ => ⟨S10000x16, .f32⟩
  | .local _ .vmem, ⟨35, _⟩ => ⟨S10000x16, .f32⟩
  | .local _ .vmem, ⟨36, _⟩ => ⟨S10000x16, .f32⟩
  | .local _ .vmem, ⟨37, _⟩ => ⟨S10000x1, .f32⟩
  | .local _ .vmem, ⟨38, _⟩ => ⟨S10000x1, .f32⟩
  | .local _ .vmem, ⟨39, _⟩ => ⟨S1x16, .f32⟩
  | .local _ .vmem, ⟨40, _⟩ => ⟨S10000x16, .f32⟩
  | .local _ .vmem, ⟨41, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_6 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_7 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_8 : Ref sig .tc := ⟨.hbm, 53, rfl⟩
abbrev main_v30 : Ref sig .tc := ⟨.hbm, 54, rfl⟩
abbrev main_v31 : Ref sig .tc := ⟨.hbm, 55, rfl⟩
abbrev main_c_9 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_13 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S10000x1_S10000x16 : S10000x1.Broadcasts S10000x16
  broadcasts_S1x16_S10000x16 : S1x16.Broadcasts S10000x16
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x16_S10000x16_1_0_0_1_n_n_wf : DotDims.WF S10000x128 S128x16 S10000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .f32 = 32 ∨ (Rect.block (s := S100000x1) S10000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x16.size a ≤ S128x16.size a
  hwx4_2 : ∀ i : grid4.Coords, EltTy.bits .f32 = 32 ∨ (Rect.block (s := S128x16) S128x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x16.size a ≤ S100000x16.size a
  hwx4_3 : ∀ i : grid4.Coords, EltTy.bits .f32 = 32 ∨ (Rect.block (s := S100000x16) S10000x16.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x16.size a ≤ S100000x16.size a
  hwx5_0 : ∀ i : grid5.Coords, EltTy.bits .f32 = 32 ∨ (Rect.block (s := S100000x16) S10000x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S100000x1.size a
  hwx5_1 : ∀ i : grid5.Coords, EltTy.bits .f32 = 32 ∨ (Rect.block (s := S100000x1) S10000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x16.size a ≤ S1x16.size a
  hwx5_2 : ∀ i : grid5.Coords, EltTy.bits .f32 = 32 ∨ (Rect.block (s := S1x16) S1x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x16.size a ≤ S100000x16.size a
  hwx5_3 : ∀ i : grid5.Coords, EltTy.bits .f32 = 32 ∨ (Rect.block (s := S100000x16) S10000x16.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v42) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v44) S10000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v54) S10000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S10000x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x16 : Shape := ⟨2, ![100000, 16]⟩
abbrev S1600000x16 : Shape := ⟨2, ![1600000, 16]⟩
abbrev S1x16 : Shape := ⟨2, ![1, 16]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S100000x16, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x16, .f32⟩
  | .hbm, ⟨98, _⟩ => ⟨S_, .f32⟩
  | .hbm, ⟨99, _⟩ => ⟨S100000x16, .f32⟩
  | .hbm, ⟨100, _⟩ => ⟨S1600000x1, .i32⟩
  | .hbm, ⟨101, _⟩ => ⟨S100000x16, .f32⟩
  | .hbm, ⟨102, _⟩ => ⟨S100000x1, .f32⟩
  | .hbm, ⟨103, _⟩ => ⟨S100000x16, .f32⟩
  | .hbm, ⟨104, _⟩ => ⟨S100000x16, .f32⟩
  | .hbm, ⟨105, _⟩ => ⟨S1x16, .f32⟩
  | .hbm, ⟨106, _⟩ => ⟨S100000x16, .f32⟩
  | .hbm, ⟨107, _⟩ => ⟨S100000x16, .f32⟩
  | .hbm, ⟨108, _⟩ => ⟨S100000x16, .f32⟩
  | .hbm, ⟨109, _⟩ => ⟨S100000x16, .f32⟩
  | .hbm, ⟨110, _⟩ => ⟨S_, .f32⟩
  | .hbm, ⟨111, _⟩ => ⟨S100000x16, .f32⟩
  | .hbm, ⟨112, _⟩ => ⟨S100000x16, .f32⟩
  | .hbm, ⟨113, _⟩ => ⟨S_, .f32⟩
  | .hbm, ⟨114, _⟩ => ⟨S100000x16, .f32⟩
  | .hbm, ⟨115, _⟩ => ⟨S100000x16, .f32⟩
  | .hbm, ⟨116, _⟩ => ⟨S_, .f32⟩
  | .hbm, ⟨117, _⟩ => ⟨S100000x16, .f32⟩
  | .hbm, ⟨118, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_c_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call3_cst : Ref sig .tc := ⟨.hbm, 82, rfl⟩
abbrev main_call3_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_11 : Ref sig .tc := ⟨.hbm, 89, rfl⟩
abbrev main_v59 : Ref sig .tc := ⟨.hbm, 90, rfl⟩
abbrev main_v60 : Ref sig .tc := ⟨.hbm, 91, rfl⟩
abbrev main_c_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_cst_16 : Ref sig .tc := ⟨.hbm, 116, rfl⟩
abbrev main_v81 : Ref sig .tc := ⟨.hbm, 117, rfl⟩
abbrev main_v82 : Ref sig .tc := ⟨.hbm, 118, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x16_S100000x16_1_0_0_1_n_n_wf : DotDims.WF S100000x128 S128x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.RunValue.lean ====
/-
  The idealized kernel's run with its result kept: at the compiled mesh, from any memory with zero counters, every
  weakly fair execution of the program terminates without a fault, the result buffer holding what the last region's
  write-backs leave in its output array and the nine argument arrays as launched. The program is six regions among
  stretches of host operations; the contents of every unscoped buffer at the end of the last segment are read against
  the final state, the result at its own buffer and each argument walked back to the launch memory.
-/
import proofs.«155195_j18476949307699_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer at the last boundary's contents and the arguments as launched. -/
theorem run : θ_run defs (onTc (τ := τ) (main (F := F))) ⟨m, fun _ => 0, ρ⟩ (fun r => ∀ c : Dev nD,
      r.2.mem ((c.tc : Thread nD τ).loc main_v57) = W16 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v57 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c)⟩)

end Cert.KernelIdeal.RunValue

end
-- ==== Proof.LibMatDot.lean ====
/-
  The product of an m×k matrix by a k×n matrix, read at one entry, at the ideal values: both the vector unit's
  matrix product into a zero accumulator and the host's `dot_general` with the dimension numbers
  (contracting [1]×[0], no batch axis) are the sum over the contracted coordinate of the products of the entries,
  `∑ c, A (a, c) * B (c, b)`, whatever the element formats of the operands and whatever proof of well-formedness
  the record of dimension numbers carries. Also three broadcasts read at an entry: a column `[a, 1]` laid across
  `b` columns (the vector unit's and the host's), a vector of `n` entries laid along every row through a one-row
  matrix (the host's two-step form), and a scalar constant laid over a shape.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

open scoped BigOperators

namespace Cert.Lib.MatDot

open Idealize.ShloMosaic Idealize.ShloMosaic.ValueIdx

variable {m k n : Nat} {φ₁ φ₂ : FTy}

/-- The left operand's entry that output entry `(a, b)` meets at contraction position `c` is `(a, c)`. -/
theorem lhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's entry there is `(c, b)`. -/
theorem rhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's matrix product at entry `(a, b)` is `∑ c, A (a, c) * B (c, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

/-- The vector unit's matrix product into the zero accumulator at entry `(a, b)` is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

variable {α : Type}

/-- A column `[a, 1]` laid across `b` columns by the vector unit's broadcast reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` along axes `[0, 1]` reads the same. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `n` entries made a one-row matrix along axis 1 by the host reads, at `(u, t)`, the vector at `t`. -/
theorem broadcastInDim_vec_oneRow_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) fun ax => ?_
  match ax with
  | ⟨0, _⟩ =>
    show t.val = if n = 1 then 0 else t.val
    split
    · have := t.isLt; omega
    · rfl

/-- So the host's two-step row broadcast (a vector to one row, the row down `m` rows) reads, at `(r, t)`, the vector at `t`. -/
theorem broadcastInDim_vec_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) :=
  (Idealize.ShloMosaic.broadcastInDim_oneRow_apply h2 _ r t).trans (broadcastInDim_vec_oneRow_apply h1 x 0 t)

/-- The vector unit's form of the same: the vector cast to one row, the row laid down `m` rows. -/
theorem broadcastTo_vec_rows_apply {m n : ℕ} (h1 : (⟨1, ![n]⟩ : Shape).ShapeCasts ⟨2, ![1, n]⟩)
    (h2 : (⟨2, ![1, n]⟩ : Shape).Broadcasts ⟨2, ![m, n]⟩) (x : (⟨1, ![n]⟩ : Shape).Idx → α) (r : Fin m) (t : Fin n) :
    broadcastTo ⟨2, ![m, n]⟩ (shapeCast ⟨2, ![1, n]⟩ x h1) h2 (ix2 r t) = x (ix1 t) :=
  (broadcastTo_1b_ab_apply _ h2 r t).trans (shapeCast_a_1a_apply x h1 0 t)

end Cert.Lib.MatDot

end
-- ==== Proof.LibGcnStages.lean ====
/-
  The two dense stages of a graph-convolution layer, as functions of whole arrays read at one entry.

  * The stage before the aggregation: row `r` of the node features is scaled by the node's factor `s r` and the
    scaled matrix is multiplied by the weights: entry `(r, q)` is `∑ k, (h (r, k) * s r) * W (k, q)`.
  * The stage after it: row `r` of the aggregate is scaled by the node's factor, the bias is added along every row,
    and an activation is applied entry by entry: `act (a (r, q) * s r + b q)`, the activation being `max · 0`
    or the logistic function plus a small constant.

  Each is shown equal, entry by entry, to its spelling in the host's operations on whole arrays (a product with
  the column of factors laid across the columns, `dot_general`; a sum with the bias laid down the rows,
  `maximum`; the quotient `1 / (1 + exp (-x))`) and to its spelling in the vector unit's operations on a block
  of rows (the same with the matrix product into a zero accumulator and the logistic operation). At the ideal
  values a change of float format is the identity, the two matrix products are the same sum over the contracted
  coordinate, and the logistic operation is by definition `1 / (1 + exp (-x))`; no law of arithmetic beyond
  `0 + x = x` inside the matrix product is used, so nothing here needs the entries to be finite.
  The factor column is an `[N, 1]` array and the bias a `[1, n]` array: a vector reshaped to either is the vector
  broadcast along the new unit axis.
-/
import proofs.«155195_j18476949307699_1_alg».proof.Proof.LibMatDot

noncomputable section

open scoped BigOperators

namespace Cert.Gcn

open Idealize.ShloMosaic Idealize.ShloMosaic.ValueIdx Cert.Lib

variable {N Fi Fo : Nat}

/-! ## The stage before the aggregation -/

/-- Rows scaled by the node factors, times the weights. -/
def scaleMul (h : FVec Ideal ⟨2, ![N, Fi]⟩ .f32) (s : FVec Ideal ⟨2, ![N, 1]⟩ .f32) (W : FVec Ideal ⟨2, ![Fi, Fo]⟩ .f32) :
    FVec Ideal ⟨2, ![N, Fo]⟩ .f32 :=
  fun i => ∑ k : Fin Fi, (h (ix2 (i 0) k) * s (ix2 (i 0) (0 : Fin 1))) * W (ix2 k (i 1))

theorem scaleMul_apply (h : FVec Ideal ⟨2, ![N, Fi]⟩ .f32) (s : FVec Ideal ⟨2, ![N, 1]⟩ .f32) (W : FVec Ideal ⟨2, ![Fi, Fo]⟩ .f32)
    (r : Fin N) (q : Fin Fo) :
    scaleMul h s W (ix2 r q) = ∑ k : Fin Fi, (h (ix2 r k) * s (ix2 r (0 : Fin 1))) * W (ix2 k q) := rfl

/-- The host's spelling: the factor column laid across the columns, an entrywise product, `dot_general`. -/
theorem host_scaleMul (w : DotDims.WF ⟨2, ![N, Fi]⟩ ⟨2, ![Fi, Fo]⟩ ⟨2, ![N, Fo]⟩ [1] [0] [0] [1] [] [])
    (prec : Option ContractPrecision) (hb : (⟨2, ![N, 1]⟩ : Shape).BroadcastsInDim ⟨2, ![N, Fi]⟩ ![0, 1])
    (h : FVec Ideal ⟨2, ![N, Fi]⟩ .f32) (s : FVec Ideal ⟨2, ![N, 1]⟩ .f32) (W : FVec Ideal ⟨2, ![Fi, Fo]⟩ .f32) :
    Host.dotGeneral (⟨[1], [0], [0], [1], [], [], w⟩ : DotDims ⟨2, ![N, Fi]⟩ ⟨2, ![Fi, Fo]⟩ ⟨2, ![N, Fo]⟩) prec
        (mulf h (broadcastInDim ⟨2, ![N, Fi]⟩ ![0, 1] hb s)) W = scaleMul h s W := by
  funext i
  obtain ⟨r, q, rfl⟩ : ∃ (r : Fin N) (q : Fin Fo), i = ix2 r q := ⟨i 0, i 1, eq_ix2 i⟩
  rw [MatDot.dotGeneral_apply, scaleMul_apply]
  refine Finset.sum_congr rfl fun k _ => ?_
  rw [mulf_apply, MatDot.broadcastInDim_col_apply]

/-- The vector unit's spelling on a block of `n` rows, at an entry of the block: the factor column laid across the
    columns, the product rounded to bf16, the weights rounded to bf16, the matrix product into a zero accumulator. -/
theorem block_scaleMul {n : Nat} (w : DotDims.WF ⟨2, ![n, Fi]⟩ ⟨2, ![Fi, Fo]⟩ ⟨2, ![n, Fo]⟩ [1] [0] [0] [1] [] [])
    (prec : Option ContractPrecision) (hb : (⟨2, ![n, 1]⟩ : Shape).Broadcasts ⟨2, ![n, Fi]⟩)
    (hlt : FTy.bf16.bits < FTy.f32.bits)
    (x0 : FVec Ideal ⟨2, ![n, Fi]⟩ .f32) (x1 : FVec Ideal ⟨2, ![n, 1]⟩ .f32) (x2 : FVec Ideal ⟨2, ![Fi, Fo]⟩ .f32)
    (p : Fin n) (q : Fin Fo) :
    matmul (⟨[1], [0], [0], [1], [], [], w⟩ : DotDims ⟨2, ![n, Fi]⟩ ⟨2, ![Fi, Fo]⟩ ⟨2, ![n, Fo]⟩) prec
        (truncf .bf16 (mulf x0 (broadcastTo ⟨2, ![n, Fi]⟩ x1 hb)) hlt) (truncf .bf16 x2 hlt)
        (constant (F := Ideal) ⟨2, ![n, Fo]⟩ .f32 0x00000000#32) (ix2 p q)
      = ∑ k : Fin Fi, (x0 (ix2 p k) * x1 (ix2 p (0 : Fin 1))) * x2 (ix2 k q) := by
  rw [MatDot.matmul_zero_apply]
  refine Finset.sum_congr rfl fun k _ => ?_
  rw [truncf_apply, truncf_apply, mulf_apply, MatDot.broadcastTo_col_apply]

/-! ## The stage after the aggregation -/

/-- Rows scaled by the node factors, plus the bias along every row. -/
def scaleBias (a : FVec Ideal ⟨2, ![N, Fo]⟩ .f32) (s : FVec Ideal ⟨2, ![N, 1]⟩ .f32) (b : FVec Ideal ⟨2, ![1, Fo]⟩ .f32) :
    FVec Ideal ⟨2, ![N, Fo]⟩ .f32 :=
  fun i => a (ix2 (i 0) (i 1)) * s (ix2 (i 0) (0 : Fin 1)) + b (ix2 (0 : Fin 1) (i 1))

theorem scaleBias_apply (a : FVec Ideal ⟨2, ![N, Fo]⟩ .f32) (s : FVec Ideal ⟨2, ![N, 1]⟩ .f32) (b : FVec Ideal ⟨2, ![1, Fo]⟩ .f32)
    (r : Fin N) (q : Fin Fo) :
    scaleBias a s b (ix2 r q) = a (ix2 r q) * s (ix2 r (0 : Fin 1)) + b (ix2 (0 : Fin 1) q) := rfl

/-- The host's spelling of the scaled, biased aggregate. -/
theorem host_scaleBias (hs : (⟨2, ![N, 1]⟩ : Shape).BroadcastsInDim ⟨2, ![N, Fo]⟩ ![0, 1])
    (hr : (⟨2, ![1, Fo]⟩ : Shape).BroadcastsInDim ⟨2, ![N, Fo]⟩ ![0, 1])
    (a : FVec Ideal ⟨2, ![N, Fo]⟩ .f32) (s : FVec Ideal ⟨2, ![N, 1]⟩ .f32) (b : FVec Ideal ⟨2, ![1, Fo]⟩ .f32) :
    addf (mulf a (broadcastInDim ⟨2, ![N, Fo]⟩ ![0, 1] hs s)) (broadcastInDim ⟨2, ![N, Fo]⟩ ![0, 1] hr b) = scaleBias a s b := by
  funext i
  obtain ⟨r, q, rfl⟩ : ∃ (r : Fin N) (q : Fin Fo), i = ix2 r q := ⟨i 0, i 1, eq_ix2 i⟩
  rw [addf_apply, mulf_apply, MatDot.broadcastInDim_col_apply, broadcastInDim_oneRow_apply, scaleBias_apply]

/-- The vector unit's spelling on a block of `n` rows, at an entry of the block. -/
theorem block_scaleBias {n : Nat} (hs : (⟨2, ![n, 1]⟩ : Shape).Broadcasts ⟨2, ![n, Fo]⟩)
    (hr : (⟨2, ![1, Fo]⟩ : Shape).Broadcasts ⟨2, ![n, Fo]⟩)
    (x0 : FVec Ideal ⟨2, ![n, Fo]⟩ .f32) (x1 : FVec Ideal ⟨2, ![n, 1]⟩ .f32) (x2 : FVec Ideal ⟨2, ![1, Fo]⟩ .f32)
    (p : Fin n) (q : Fin Fo) :
    addf (mulf x0 (broadcastTo ⟨2, ![n, Fo]⟩ x1 hs)) (broadcastTo ⟨2, ![n, Fo]⟩ x2 hr) (ix2 p q)
      = x0 (ix2 p q) * x1 (ix2 p (0 : Fin 1)) + x2 (ix2 (0 : Fin 1) q) := by
  rw [addf_apply, mulf_apply, MatDot.broadcastTo_col_apply, broadcastTo_1b_ab_apply]

/-- The rectified stage: `max (a (r, q) * s r + b q) 0`, the zero kept as the float word it is printed as. -/
def reluStage (a : FVec Ideal ⟨2, ![N, Fo]⟩ .f32) (s : FVec Ideal ⟨2, ![N, 1]⟩ .f32) (b : FVec Ideal ⟨2, ![1, Fo]⟩ .f32) :
    FVec Ideal ⟨2, ![N, Fo]⟩ .f32 :=
  fun i => max (scaleBias a s b i) (Ideal.ofBits .f32 0x00000000#32)

/-- The logistic stage: `logistic (a (r, q) * s r + b q) + ε`, `ε` kept as the float word it is printed as. -/
def logisticStage (a : FVec Ideal ⟨2, ![N, Fo]⟩ .f32) (s : FVec Ideal ⟨2, ![N, 1]⟩ .f32) (b : FVec Ideal ⟨2, ![1, Fo]⟩ .f32) :
    FVec Ideal ⟨2, ![N, Fo]⟩ .f32 :=
  fun i => Ideal.logistic (scaleBias a s b i) + Ideal.ofBits .f32 0x322BCC77#32

theorem reluStage_apply (a : FVec Ideal ⟨2, ![N, Fo]⟩ .f32) (s : FVec Ideal ⟨2, ![N, 1]⟩ .f32) (b : FVec Ideal ⟨2, ![1, Fo]⟩ .f32)
    (r : Fin N) (q : Fin Fo) :
    reluStage a s b (ix2 r q)
      = max (a (ix2 r q) * s (ix2 r (0 : Fin 1)) + b (ix2 (0 : Fin 1) q)) (Ideal.ofBits .f32 0x00000000#32) := rfl

theorem logisticStage_apply (a : FVec Ideal ⟨2, ![N, Fo]⟩ .f32) (s : FVec Ideal ⟨2, ![N, 1]⟩ .f32) (b : FVec Ideal ⟨2, ![1, Fo]⟩ .f32)
    (r : Fin N) (q : Fin Fo) :
    logisticStage a s b (ix2 r q)
      = Ideal.logistic (a (ix2 r q) * s (ix2 r (0 : Fin 1)) + b (ix2 (0 : Fin 1) q)) + Ideal.ofBits .f32 0x322BCC77#32 := rfl

/-- The host's rectified stage: the maximum with the zero constant laid over the shape. -/
theorem host_reluStage (hs : (⟨2, ![N, 1]⟩ : Shape).BroadcastsInDim ⟨2, ![N, Fo]⟩ ![0, 1])
    (hr : (⟨2, ![1, Fo]⟩ : Shape).BroadcastsInDim ⟨2, ![N, Fo]⟩ ![0, 1])
    (hz : (⟨0, ![]⟩ : Shape).BroadcastsInDim ⟨2, ![N, Fo]⟩ ![])
    (a : FVec Ideal ⟨2, ![N, Fo]⟩ .f32) (s : FVec Ideal ⟨2, ![N, 1]⟩ .f32) (b : FVec Ideal ⟨2, ![1, Fo]⟩ .f32) :
    maximumf (addf (mulf a (broadcastInDim ⟨2, ![N, Fo]⟩ ![0, 1] hs s)) (broadcastInDim ⟨2, ![N, Fo]⟩ ![0, 1] hr b))
        (broadcastInDim ⟨2, ![N, Fo]⟩ ![] hz (constant (F := Ideal) ⟨0, ![]⟩ .f32 0x00000000#32)) = reluStage a s b := by
  funext i
  rw [maximumf_apply, host_scaleBias, broadcastInDim_scalar_apply]
  rfl

/-- The host's logistic stage: jax spells the logistic function `1 / (1 + exp (-x))`, which is its definition on
    the extended reals; the word `0x3F800000` is the number one. -/
theorem host_logisticStage (hs : (⟨2, ![N, 1]⟩ : Shape).BroadcastsInDim ⟨2, ![N, Fo]⟩ ![0, 1])
    (hr : (⟨2, ![1, Fo]⟩ : Shape).BroadcastsInDim ⟨2, ![N, Fo]⟩ ![0, 1])
    (hz : (⟨0, ![]⟩ : Shape).BroadcastsInDim ⟨2, ![N, Fo]⟩ ![])
    (a : FVec Ideal ⟨2, ![N, Fo]⟩ .f32) (s : FVec Ideal ⟨2, ![N, 1]⟩ .f32) (b : FVec Ideal ⟨2, ![1, Fo]⟩ .f32) :
    addf (Host.divf (broadcastInDim ⟨2, ![N, Fo]⟩ ![] hz (constant (F := Ideal) ⟨0, ![]⟩ .f32 0x3F800000#32))
          (addf (broadcastInDim ⟨2, ![N, Fo]⟩ ![] hz (constant (F := Ideal) ⟨0, ![]⟩ .f32 0x3F800000#32))
            (Host.exp (Host.negf (addf (mulf a (broadcastInDim ⟨2, ![N, Fo]⟩ ![0, 1] hs s)) (broadcastInDim ⟨2, ![N, Fo]⟩ ![0, 1] hr b))))))
        (broadcastInDim ⟨2, ![N, Fo]⟩ ![] hz (constant (F := Ideal) ⟨0, ![]⟩ .f32 0x322BCC77#32)) = logisticStage a s b := by
  funext i
  rw [host_scaleBias, addf_apply, hostDivf_apply, addf_apply, broadcastInDim_scalar_apply, broadcastInDim_scalar_apply]
  show Ideal.div (Ideal.ofBits .f32 0x3F800000#32) (Ideal.ofBits .f32 0x3F800000#32 + Ideal.exp (-(scaleBias a s b i)))
      + Ideal.ofBits .f32 0x322BCC77#32 = _
  rw [Ideal.ofBits_one_f32]
  rfl

/-! ## A vector reshaped to a column or to a row -/

/-- A vector of `n` entries reshaped to an `[n, 1]` column is the vector broadcast along axis 0 of the column. -/
theorem shapeCast_col_eq_broadcastInDim {n : Nat} {α : Type} (h : (⟨1, ![n]⟩ : Shape).ShapeCasts ⟨2, ![n, 1]⟩)
    (hb : (⟨1, ![n]⟩ : Shape).BroadcastsInDim ⟨2, ![n, 1]⟩ ![0]) (x : (⟨1, ![n]⟩ : Shape).Idx → α) :
    shapeCast ⟨2, ![n, 1]⟩ x h = broadcastInDim ⟨2, ![n, 1]⟩ ![0] hb x := by
  funext i
  obtain ⟨r, u, rfl⟩ : ∃ (r : Fin n) (u : Fin 1), i = ix2 r u := ⟨i 0, i 1, eq_ix2 i⟩
  have e1 : shapeCast ⟨2, ![n, 1]⟩ x h (ix2 r u) = x (ix1 r) := by
    refine shapeCast_apply x h (ix2 r u) (ix1 r) ?_
    have hu : u.val = 0 := by have := u.isLt; omega
    simp [Shape.rowMajor_val_two, Shape.rowMajor_val_one, hu]
    show r.val = r.val + u.val
    omega
  have e2 : broadcastInDim ⟨2, ![n, 1]⟩ ![0] hb x (ix2 r u) = x (ix1 r) := by
    refine broadcastInDim_apply ![0] hb x (ix2 r u) (ix1 r) fun ax => ?_
    match ax with
    | ⟨0, _⟩ =>
      show r.val = if n = 1 then 0 else r.val
      split
      · have := r.isLt; omega
      · rfl
  rw [e1, e2]

/-- A vector of `n` entries reshaped to a `[1, n]` row is the vector broadcast along axis 1 of the row. -/
theorem shapeCast_row_eq_broadcastInDim {n : Nat} {α : Type} (h : (⟨1, ![n]⟩ : Shape).ShapeCasts ⟨2, ![1, n]⟩)
    (hb : (⟨1, ![n]⟩ : Shape).BroadcastsInDim ⟨2, ![1, n]⟩ ![1]) (x : (⟨1, ![n]⟩ : Shape).Idx → α) :
    shapeCast ⟨2, ![1, n]⟩ x h = broadcastInDim ⟨2, ![1, n]⟩ ![1] hb x := by
  funext i
  obtain ⟨u, q, rfl⟩ : ∃ (u : Fin 1) (q : Fin n), i = ix2 u q := ⟨i 0, i 1, eq_ix2 i⟩
  rw [shapeCast_a_1a_apply, MatDot.broadcastInDim_vec_oneRow_apply]

end Cert.Gcn

end
-- ==== Proof.Region0.lean ====
/-
  Region 0 of the idealized kernel: the stage before the aggregation on blocks of 10000 rows. At any contents of the
  buffers when the region is entered, the region's output array ends as the rows of the input array scaled by the
  factor column and multiplied by the weights, entry (r, q) being ∑ k, (h (r, k) * s r) * W (k, q): grid point t
  writes back rows 10000 t … 10000 t + 9999, each entry of its block the vector unit's matrix product of the block's
  scaled rows with the whole weight matrix, and the ten blocks cover the array.
-/
import proofs.«155195_j18476949307699_1_alg».proof.Proof.Gen.KernelIdeal.Frame
import proofs.«155195_j18476949307699_1_alg».proof.Proof.LibGcnStages

set_option maxRecDepth 16384

noncomputable section

open scoped BigOperators

namespace Cert.KernelIdeal.Region0

open Idealize.ShloMosaic Idealize.ShloMosaic.TcCoe Idealize.ShloMosaic.ValueIdx
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of its block: the scaled row times the weights' column. -/
theorem pay_apply (x0 : Vec Ideal S10000x128 .f32) (x1 : Vec Ideal S10000x1 .f32) (x2 : Vec Ideal S128x128 .f32)
    (p : Fin 10000) (q : Fin 128) :
    k0_pay1 x0 x1 x2 (ix2 p q) = ∑ k : Fin 128, (x0 (ix2 p k) * x1 (ix2 p (0 : Fin 1))) * x2 (ix2 k q) := by
  unfold k0_pay1
  refine (block_scaleMul (n := 10000) (Fi := 128) (Fo := 128) _ none _ _ x0 (shapeCast S10000x1 x1 shapeCasts_S10000x1_S10000x1) x2 p q).trans ?_
  rw [shapeCast_self]

/-- The printed index maps over the grid: the row windows move with the point, the weights stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `10000 t + p` of the array. -/
def row (t : Fin cfg0.N) (p : Fin 10000) : Fin 100000 :=
  ⟨t.val * 10000 + p.val, by have ht : t.val < 10 := N_0 ▸ t.isLt; have := p.isLt; omega⟩

/-- What point `t` writes back is block `t` of the stage's array. -/
theorem flushed_eq (c : Dev nD) (t : Fin cfg0.N) :
    (dat0 V c).flushed 3 t = ((cfg0.win 3).blk t).view.read (Elt Ideal)
      (scaleMul (N := 100000) (Fi := 128) (Fo := 128) (V c main_arg0) (V c main_v13) (V c main_arg3)) := by
  show (cfg0.win 3).cut (grid0.coords t) ((dat0 V c).after 3 t) = _
  rw [after0_3]
  unfold out0_3
  rw [View.canon_unit_zero hz]
  simp only [View.ld_unit_zero (S := S10000x128) hz, View.ld_unit_zero (S := S10000x1) hz, View.ld_unit_zero (S := S128x128) hz]
  obtain ⟨e0, e1, e2, e3, e4, e5, e6, e7⟩ := idx_facts t
  funext j
  obtain ⟨p, q, rfl⟩ : ∃ (p : Fin 10000) (q : Fin 128), j = ix2 p q := ⟨j 0, j 1, eq_ix2 j⟩
  have h0 (k : Fin 128) : ((cfg0.win 0).blk t).view.emb (ix2 p k) = ix2 (row t p) k := by
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have h1 : ((cfg0.win 1).blk t).view.emb (ix2 p (0 : Fin 1)) = ix2 (row t p) (0 : Fin 1) := by
    funext a; apply Fin.ext
    match a with
    | ⟨0, _⟩ => show win0_1.index t (0 : Fin 2) * 10000 + 1 * p.val = t.val * 10000 + p.val; omega
    | ⟨1, _⟩ => show win0_1.index t (1 : Fin 2) * 1 + 1 * 0 = 0; omega
  have h2 (k : Fin 128) : ((cfg0.win 2).blk t).view.emb (ix2 k q) = ix2 k q := by
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  have h3 : ((cfg0.win 3).blk t).view.emb (ix2 p q) = ix2 (row t p) q := by
    funext a; apply Fin.ext
    match a with
    | ⟨0, _⟩ => show win0_3.index t (0 : Fin 2) * 10000 + 1 * p.val = t.val * 10000 + p.val; omega
    | ⟨1, _⟩ => show win0_3.index t (1 : Fin 2) * 128 + 1 * q.val = q.val; omega
  refine (pay_apply (iblk0 V c 0 t) (iblk0 V c 1 t) (iblk0 V c 2 t) p q).trans ?_
  refine Eq.trans ?_ (congrArg (scaleMul (N := 100000) (Fi := 128) (Fo := 128) (V c main_arg0) (V c main_v13) (V c main_arg3)) h3).symm
  rw [scaleMul_apply]
  refine Finset.sum_congr rfl fun k _ => ?_
  have q0 : iblk0 V c 0 t (ix2 p k) = V c main_arg0 (ix2 (row t p) k) := congrArg (V c main_arg0) (h0 k)
  have q1 : iblk0 V c 1 t (ix2 p (0 : Fin 1)) = V c main_v13 (ix2 (row t p) (0 : Fin 1)) := congrArg (V c main_v13) h1
  have q2 : iblk0 V c 2 t (ix2 k q) = V c main_arg3 (ix2 k q) := congrArg (V c main_arg3) (h2 k)
  rw [q0, q1, q2]

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v14).slice (win0_3.rect t)).set ↔ _
  rw [View.set_slice_whole, Rect.mem_set_unit]
  exact Iff.rfl

/-- Every entry of the array is in the block of the point its row falls in. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 10000, by rw [show cfg0.N = 10 from N_0]; omega⟩
  have ht : t.val = (i 0).val / 10000 := rfl
  obtain ⟨e0, e1, e2, e3, e4, e5, e6, e7⟩ := idx_facts t
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The region's output array after the region. -/
theorem arr (c : Dev nD) : (dat0 V c).arrAt 3 cfg0.N
    = scaleMul (N := 100000) (Fi := 128) (Fo := 128) (V c main_arg0) (V c main_v13) (V c main_arg3) :=
  (dat0 V c).arrAt_eq_of_cover 3 _ (fun t _ => flushed_eq V c t) (cover)

end Cert.KernelIdeal.Region0

end
-- ==== Proof.Region1.lean ====
/-
  Region 1 of the idealized kernel: the stage after the aggregation on blocks of 10000 rows. At any contents of the
  buffers when the region is entered, the region's output array ends, at entry (r, q), as the aggregate's entry
  scaled by the node's factor plus the bias at q, rectified: max (a (r, q) * s r + b q) 0: grid
  point t writes back rows 10000 t … 10000 t + 9999, each entry computed from the same entry of the aggregate's block,
  the factor of its row and the bias of its column, and the ten blocks cover the array.
-/
import proofs.«155195_j18476949307699_1_alg».proof.Proof.Gen.KernelIdeal.Frame
import proofs.«155195_j18476949307699_1_alg».proof.Proof.LibGcnStages

set_option maxRecDepth 16384

noncomputable section

namespace Cert.KernelIdeal.Region1

open Idealize.ShloMosaic Idealize.ShloMosaic.TcCoe Idealize.ShloMosaic.ValueIdx
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of its block. -/
theorem pay_apply (x0 : Vec Ideal S10000x128 .f32) (x1 : Vec Ideal S10000x1 .f32) (x2 : Vec Ideal S1x128 .f32)
    (p : Fin 10000) (q : Fin 128) :
    k1_pay1 x0 x1 x2 (ix2 p q) = max (x0 (ix2 p q) * x1 (ix2 p (0 : Fin 1)) + x2 (ix2 (0 : Fin 1) q)) (Ideal.ofBits .f32 0x00000000#32) := by
  unfold k1_pay1
  have e := block_scaleBias (n := 10000) (Fo := 128) broadcasts_S10000x1_S10000x128 broadcasts_S1x128_S10000x128
    (shapeCast S10000x128 x0 shapeCasts_S10000x128_S10000x128) (shapeCast S10000x1 x1 shapeCasts_S10000x1_S10000x1)
    (shapeCast S1x128 x2 shapeCasts_S1x128_S1x128) p q
  have e0 : shapeCast S10000x128 x0 shapeCasts_S10000x128_S10000x128 = x0 := shapeCast_self x0 _
  have e1 : shapeCast S10000x1 x1 shapeCasts_S10000x1_S10000x1 = x1 := shapeCast_self x1 _
  have e2 : shapeCast S1x128 x2 shapeCasts_S1x128_S1x128 = x2 := shapeCast_self x2 _
  refine (congrArg (fun z => max z (Ideal.ofBits .f32 0x00000000#32)) e).trans ?_
  rw [e0, e1, e2]

/-- The printed index maps over the grid: the row windows move with the point, the bias row stays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of point `t`'s block is row `10000 t + p` of the array. -/
def row (t : Fin cfg1.N) (p : Fin 10000) : Fin 100000 :=
  ⟨t.val * 10000 + p.val, by have ht : t.val < 10 := N_1 ▸ t.isLt; have := p.isLt; omega⟩

/-- What point `t` writes back is block `t` of the stage's array. -/
theorem flushed_eq (c : Dev nD) (t : Fin cfg1.N) :
    (dat1 V c).flushed 3 t = ((cfg1.win 3).blk t).view.read (Elt Ideal)
      (reluStage (N := 100000) (Fo := 128) (V c main_v24) (V c main_v25) (V c main_v26)) := by
  show (cfg1.win 3).cut (grid1.coords t) ((dat1 V c).after 3 t) = _
  rw [after1_3]
  unfold out1_3
  rw [View.canon_unit_zero hz]
  simp only [View.ld_unit_zero (S := S10000x128) hz, View.ld_unit_zero (S := S10000x1) hz, View.ld_unit_zero (S := S1x128) hz]
  obtain ⟨e0, e1, e2, e3, e4, e5, e6, e7⟩ := idx_facts t
  funext j
  obtain ⟨p, q, rfl⟩ : ∃ (p : Fin 10000) (q : Fin 128), j = ix2 p q := ⟨j 0, j 1, eq_ix2 j⟩
  have h0 : ((cfg1.win 0).blk t).view.emb (ix2 p q) = ix2 (row t p) q := by
    funext a; apply Fin.ext
    match a with
    | ⟨0, _⟩ => show win1_0.index t (0 : Fin 2) * 10000 + 1 * p.val = t.val * 10000 + p.val; omega
    | ⟨1, _⟩ => show win1_0.index t (1 : Fin 2) * 128 + 1 * q.val = q.val; omega
  have h1 : ((cfg1.win 1).blk t).view.emb (ix2 p (0 : Fin 1)) = ix2 (row t p) (0 : Fin 1) := by
    funext a; apply Fin.ext
    match a with
    | ⟨0, _⟩ => show win1_1.index t (0 : Fin 2) * 10000 + 1 * p.val = t.val * 10000 + p.val; omega
    | ⟨1, _⟩ => show win1_1.index t (1 : Fin 2) * 1 + 1 * 0 = 0; omega
  have h2 : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 128 + 1 * q.val = q.val; omega
  have h3 : ((cfg1.win 3).blk t).view.emb (ix2 p q) = ix2 (row t p) q := by
    funext a; apply Fin.ext
    match a with
    | ⟨0, _⟩ => show win1_3.index t (0 : Fin 2) * 10000 + 1 * p.val = t.val * 10000 + p.val; omega
    | ⟨1, _⟩ => show win1_3.index t (1 : Fin 2) * 128 + 1 * q.val = q.val; omega
  refine (pay_apply (iblk1 V c 0 t) (iblk1 V c 1 t) (iblk1 V c 2 t) p q).trans ?_
  refine Eq.trans ?_ (congrArg (reluStage (N := 100000) (Fo := 128) (V c main_v24) (V c main_v25) (V c main_v26)) h3).symm
  rw [reluStage_apply]
  have q0 : iblk1 V c 0 t (ix2 p q) = V c main_v24 (ix2 (row t p) q) := congrArg (V c main_v24) h0
  have q1 : iblk1 V c 1 t (ix2 p (0 : Fin 1)) = V c main_v25 (ix2 (row t p) (0 : Fin 1)) := congrArg (V c main_v25) h1
  have q2 : iblk1 V c 2 t (ix2 (0 : Fin 1) q) = V c main_v26 (ix2 (0 : Fin 1) q) := congrArg (V c main_v26) h2
  rw [q0, q1, q2]

/-- An index of the array is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v27).slice (win1_3.rect t)).set ↔ _
  rw [View.set_slice_whole, Rect.mem_set_unit]
  exact Iff.rfl

/-- Every entry of the array is in the block of the point its row falls in. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  let t : Fin cfg1.N := ⟨(i 0).val / 10000, by rw [show cfg1.N = 10 from N_1]; omega⟩
  have ht : t.val = (i 0).val / 10000 := rfl
  obtain ⟨e0, e1, e2, e3, e4, e5, e6, e7⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The region's output array after the region. -/
theorem arr (c : Dev nD) : (dat1 V c).arrAt 3 cfg1.N
    = reluStage (N := 100000) (Fo := 128) (V c main_v24) (V c main_v25) (V c main_v26) :=
  (dat1 V c).arrAt_eq_of_cover 3 _ (fun t _ => flushed_eq V c t) (cover)

end Cert.KernelIdeal.Region1

end
-- ==== Proof.Region2.lean ====
/-
  Region 2 of the idealized kernel: the stage before the aggregation on blocks of 10000 rows. At any contents of the
  buffers when the region is entered, the region's output array ends as the rows of the input array scaled by the
  factor column and multiplied by the weights, entry (r, q) being ∑ k, (h (r, k) * s r) * W (k, q): grid point t
  writes back rows 10000 t … 10000 t + 9999, each entry of its block the vector unit's matrix product of the block's
  scaled rows with the whole weight matrix, and the ten blocks cover the array.
-/
import proofs.«155195_j18476949307699_1_alg».proof.Proof.Gen.KernelIdeal.Frame
import proofs.«155195_j18476949307699_1_alg».proof.Proof.LibGcnStages

set_option maxRecDepth 16384

noncomputable section

open scoped BigOperators

namespace Cert.KernelIdeal.Region2

open Idealize.ShloMosaic Idealize.ShloMosaic.TcCoe Idealize.ShloMosaic.ValueIdx
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of its block: the scaled row times the weights' column. -/
theorem pay_apply (x0 : Vec Ideal S10000x128 .f32) (x1 : Vec Ideal S10000x1 .f32) (x2 : Vec Ideal S128x128 .f32)
    (p : Fin 10000) (q : Fin 128) :
    k2_pay1 x0 x1 x2 (ix2 p q) = ∑ k : Fin 128, (x0 (ix2 p k) * x1 (ix2 p (0 : Fin 1))) * x2 (ix2 k q) := by
  unfold k2_pay1
  refine (block_scaleMul (n := 10000) (Fi := 128) (Fo := 128) _ none _ _ (shapeCast S10000x128 x0 shapeCasts_S10000x128_S10000x128) (shapeCast S10000x1 x1 shapeCasts_S10000x1_S10000x1) x2 p q).trans ?_
  rw [shapeCast_self, shapeCast_self]

/-- The printed index maps over the grid: the row windows move with the point, the weights stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of point `t`'s block is row `10000 t + p` of the array. -/
def row (t : Fin cfg2.N) (p : Fin 10000) : Fin 100000 :=
  ⟨t.val * 10000 + p.val, by have ht : t.val < 10 := N_2 ▸ t.isLt; have := p.isLt; omega⟩

/-- What point `t` writes back is block `t` of the stage's array. -/
theorem flushed_eq (c : Dev nD) (t : Fin cfg2.N) :
    (dat2 V c).flushed 3 t = ((cfg2.win 3).blk t).view.read (Elt Ideal)
      (scaleMul (N := 100000) (Fi := 128) (Fo := 128) (V c main_v27) (V c main_v28) (V c main_arg5)) := by
  show (cfg2.win 3).cut (grid2.coords t) ((dat2 V c).after 3 t) = _
  rw [after2_3]
  unfold out2_3
  rw [View.canon_unit_zero hz]
  simp only [View.ld_unit_zero (S := S10000x128) hz, View.ld_unit_zero (S := S10000x1) hz, View.ld_unit_zero (S := S128x128) hz]
  obtain ⟨e0, e1, e2, e3, e4, e5, e6, e7⟩ := idx_facts t
  funext j
  obtain ⟨p, q, rfl⟩ : ∃ (p : Fin 10000) (q : Fin 128), j = ix2 p q := ⟨j 0, j 1, eq_ix2 j⟩
  have h0 (k : Fin 128) : ((cfg2.win 0).blk t).view.emb (ix2 p k) = ix2 (row t p) k := by
    funext a; apply Fin.ext
    match a with
    | ⟨0, _⟩ => show win2_0.index t (0 : Fin 2) * 10000 + 1 * p.val = t.val * 10000 + p.val; omega
    | ⟨1, _⟩ => show win2_0.index t (1 : Fin 2) * 128 + 1 * k.val = k.val; omega
  have h1 : ((cfg2.win 1).blk t).view.emb (ix2 p (0 : Fin 1)) = ix2 (row t p) (0 : Fin 1) := by
    funext a; apply Fin.ext
    match a with
    | ⟨0, _⟩ => show win2_1.index t (0 : Fin 2) * 10000 + 1 * p.val = t.val * 10000 + p.val; omega
    | ⟨1, _⟩ => show win2_1.index t (1 : Fin 2) * 1 + 1 * 0 = 0; omega
  have h2 (k : Fin 128) : ((cfg2.win 2).blk t).view.emb (ix2 k q) = ix2 k q := by
    funext a; apply Fin.ext
    match a with
    | ⟨0, _⟩ => show win2_2.index t (0 : Fin 2) * 128 + 1 * k.val = k.val; omega
    | ⟨1, _⟩ => show win2_2.index t (1 : Fin 2) * 128 + 1 * q.val = q.val; omega
  have h3 : ((cfg2.win 3).blk t).view.emb (ix2 p q) = ix2 (row t p) q := by
    funext a; apply Fin.ext
    match a with
    | ⟨0, _⟩ => show win2_3.index t (0 : Fin 2) * 10000 + 1 * p.val = t.val * 10000 + p.val; omega
    | ⟨1, _⟩ => show win2_3.index t (1 : Fin 2) * 128 + 1 * q.val = q.val; omega
  refine (pay_apply (iblk2 V c 0 t) (iblk2 V c 1 t) (iblk2 V c 2 t) p q).trans ?_
  refine Eq.trans ?_ (congrArg (scaleMul (N := 100000) (Fi := 128) (Fo := 128) (V c main_v27) (V c main_v28) (V c main_arg5)) h3).symm
  rw [scaleMul_apply]
  refine Finset.sum_congr rfl fun k _ => ?_
  have q0 : iblk2 V c 0 t (ix2 p k) = V c main_v27 (ix2 (row t p) k) := congrArg (V c main_v27) (h0 k)
  have q1 : iblk2 V c 1 t (ix2 p (0 : Fin 1)) = V c main_v28 (ix2 (row t p) (0 : Fin 1)) := congrArg (V c main_v28) h1
  have q2 : iblk2 V c 2 t (ix2 k q) = V c main_arg5 (ix2 k q) := congrArg (V c main_arg5) (h2 k)
  rw [q0, q1, q2]

/-- An index of the array is in point `t`'s block iff each coordinate is in the block's range on its axis. -/
theorem mem_blk (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v29).slice (win2_3.rect t)).set ↔ _
  rw [View.set_slice_whole, Rect.mem_set_unit]
  exact Iff.rfl

/-- Every entry of the array is in the block of the point its row falls in. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  let t : Fin cfg2.N := ⟨(i 0).val / 10000, by rw [show cfg2.N = 10 from N_2]; omega⟩
  have ht : t.val = (i 0).val / 10000 := rfl
  obtain ⟨e0, e1, e2, e3, e4, e5, e6, e7⟩ := idx_facts t
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- The region's output array after the region. -/
theorem arr (c : Dev nD) : (dat2 V c).arrAt 3 cfg2.N
    = scaleMul (N := 100000) (Fi := 128) (Fo := 128) (V c main_v27) (V c main_v28) (V c main_arg5) :=
  (dat2 V c).arrAt_eq_of_cover 3 _ (fun t _ => flushed_eq V c t) (cover)

end Cert.KernelIdeal.Region2

end
-- ==== Proof.Region3.lean ====
/-
  Region 3 of the idealized kernel: the stage after the aggregation on blocks of 10000 rows. At any contents of the
  buffers when the region is entered, the region's output array ends, at entry (r, q), as the aggregate's entry
  scaled by the node's factor plus the bias at q, rectified: max (a (r, q) * s r + b q) 0: grid
  point t writes back rows 10000 t … 10000 t + 9999, each entry computed from the same entry of the aggregate's block,
  the factor of its row and the bias of its column, and the ten blocks cover the array.
-/
import proofs.«155195_j18476949307699_1_alg».proof.Proof.Gen.KernelIdeal.Frame
import proofs.«155195_j18476949307699_1_alg».proof.Proof.LibGcnStages

set_option maxRecDepth 16384

noncomputable section

namespace Cert.KernelIdeal.Region3

open Idealize.ShloMosaic Idealize.ShloMosaic.TcCoe Idealize.ShloMosaic.ValueIdx
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of its block. -/
theorem pay_apply (x0 : Vec Ideal S10000x128 .f32) (x1 : Vec Ideal S10000x1 .f32) (x2 : Vec Ideal S1x128 .f32)
    (p : Fin 10000) (q : Fin 128) :
    k3_pay1 x0 x1 x2 (ix2 p q) = max (x0 (ix2 p q) * x1 (ix2 p (0 : Fin 1)) + x2 (ix2 (0 : Fin 1) q)) (Ideal.ofBits .f32 0x00000000#32) := by
  unfold k3_pay1
  have e := block_scaleBias (n := 10000) (Fo := 128) broadcasts_S10000x1_S10000x128 broadcasts_S1x128_S10000x128
    (shapeCast S10000x128 x0 shapeCasts_S10000x128_S10000x128) (shapeCast S10000x1 x1 shapeCasts_S10000x1_S10000x1)
    (shapeCast S1x128 x2 shapeCasts_S1x128_S1x128) p q
  have e0 : shapeCast S10000x128 x0 shapeCasts_S10000x128_S10000x128 = x0 := shapeCast_self x0 _
  have e1 : shapeCast S10000x1 x1 shapeCasts_S10000x1_S10000x1 = x1 := shapeCast_self x1 _
  have e2 : shapeCast S1x128 x2 shapeCasts_S1x128_S1x128 = x2 := shapeCast_self x2 _
  refine (congrArg (fun z => max z (Ideal.ofBits .f32 0x00000000#32)) e).trans ?_
  rw [e0, e1, e2]

/-- The printed index maps over the grid: the row windows move with the point, the bias row stays. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of point `t`'s block is row `10000 t + p` of the array. -/
def row (t : Fin cfg3.N) (p : Fin 10000) : Fin 100000 :=
  ⟨t.val * 10000 + p.val, by have ht : t.val < 10 := N_3 ▸ t.isLt; have := p.isLt; omega⟩

/-- What point `t` writes back is block `t` of the stage's array. -/
theorem flushed_eq (c : Dev nD) (t : Fin cfg3.N) :
    (dat3 V c).flushed 3 t = ((cfg3.win 3).blk t).view.read (Elt Ideal)
      (reluStage (N := 100000) (Fo := 128) (V c main_v39) (V c main_v40) (V c main_v41)) := by
  show (cfg3.win 3).cut (grid3.coords t) ((dat3 V c).after 3 t) = _
  rw [after3_3]
  unfold out3_3
  rw [View.canon_unit_zero hz]
  simp only [View.ld_unit_zero (S := S10000x128) hz, View.ld_unit_zero (S := S10000x1) hz, View.ld_unit_zero (S := S1x128) hz]
  obtain ⟨e0, e1, e2, e3, e4, e5, e6, e7⟩ := idx_facts t
  funext j
  obtain ⟨p, q, rfl⟩ : ∃ (p : Fin 10000) (q : Fin 128), j = ix2 p q := ⟨j 0, j 1, eq_ix2 j⟩
  have h0 : ((cfg3.win 0).blk t).view.emb (ix2 p q) = ix2 (row t p) q := by
    funext a; apply Fin.ext
    match a with
    | ⟨0, _⟩ => show win3_0.index t (0 : Fin 2) * 10000 + 1 * p.val = t.val * 10000 + p.val; omega
    | ⟨1, _⟩ => show win3_0.index t (1 : Fin 2) * 128 + 1 * q.val = q.val; omega
  have h1 : ((cfg3.win 1).blk t).view.emb (ix2 p (0 : Fin 1)) = ix2 (row t p) (0 : Fin 1) := by
    funext a; apply Fin.ext
    match a with
    | ⟨0, _⟩ => show win3_1.index t (0 : Fin 2) * 10000 + 1 * p.val = t.val * 10000 + p.val; omega
    | ⟨1, _⟩ => show win3_1.index t (1 : Fin 2) * 1 + 1 * 0 = 0; omega
  have h2 : ((cfg3.win 2).blk t).view.emb (ix2 (0 : Fin 1) q) = ix2 (0 : Fin 1) q := by
    funext a; apply Fin.ext
    match a with
    | ⟨0, _⟩ => show win3_2.index t (0 : Fin 2) * 1 + 1 * 0 = 0; omega
    | ⟨1, _⟩ => show win3_2.index t (1 : Fin 2) * 128 + 1 * q.val = q.val; omega
  have h3 : ((cfg3.win 3).blk t).view.emb (ix2 p q) = ix2 (row t p) q := by
    funext a; apply Fin.ext
    match a with
    | ⟨0, _⟩ => show win3_3.index t (0 : Fin 2) * 10000 + 1 * p.val = t.val * 10000 + p.val; omega
    | ⟨1, _⟩ => show win3_3.index t (1 : Fin 2) * 128 + 1 * q.val = q.val; omega
  refine (pay_apply (iblk3 V c 0 t) (iblk3 V c 1 t) (iblk3 V c 2 t) p q).trans ?_
  refine Eq.trans ?_ (congrArg (reluStage (N := 100000) (Fo := 128) (V c main_v39) (V c main_v40) (V c main_v41)) h3).symm
  rw [reluStage_apply]
  have q0 : iblk3 V c 0 t (ix2 p q) = V c main_v39 (ix2 (row t p) q) := congrArg (V c main_v39) h0
  have q1 : iblk3 V c 1 t (ix2 p (0 : Fin 1)) = V c main_v40 (ix2 (row t p) (0 : Fin 1)) := congrArg (V c main_v40) h1
  have q2 : iblk3 V c 2 t (ix2 (0 : Fin 1) q) = V c main_v41 (ix2 (0 : Fin 1) q) := congrArg (V c main_v41) h2
  rw [q0, q1, q2]

/-- An index of the array is in point `t`'s block iff each coordinate is in the block's range on its axis. -/
theorem mem_blk (t : Fin cfg3.N) (i : S100000x128.Idx) :
    i ∈ ((cfg3.win 3).blk t).view.set ↔ ∀ a : Fin 2, win3_3.index t a * S10000x128.size a ≤ (i a).val ∧ (i a).val < win3_3.index t a * S10000x128.size a + S10000x128.size a := by
  show i ∈ ((View.whole main_v42).slice (win3_3.rect t)).set ↔ _
  rw [View.set_slice_whole, Rect.mem_set_unit]
  exact Iff.rfl

/-- Every entry of the array is in the block of the point its row falls in. -/
theorem cover (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  let t : Fin cfg3.N := ⟨(i 0).val / 10000, by rw [show cfg3.N = 10 from N_3]; omega⟩
  have ht : t.val = (i 0).val / 10000 := rfl
  obtain ⟨e0, e1, e2, e3, e4, e5, e6, e7⟩ := idx_facts t
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 128 ≤ (i 1).val ∧ (i 1).val < win3_3.index t (1 : Fin 2) * 128 + 128; omega

/-- The region's output array after the region. -/
theorem arr (c : Dev nD) : (dat3 V c).arrAt 3 cfg3.N
    = reluStage (N := 100000) (Fo := 128) (V c main_v39) (V c main_v40) (V c main_v41) :=
  (dat3 V c).arrAt_eq_of_cover 3 _ (fun t _ => flushed_eq V c t) (cover)

end Cert.KernelIdeal.Region3

end
-- ==== Proof.Region4.lean ====
/-
  Region 4 of the idealized kernel: the stage before the aggregation on blocks of 10000 rows. At any contents of the
  buffers when the region is entered, the region's output array ends as the rows of the input array scaled by the
  factor column and multiplied by the weights, entry (r, q) being ∑ k, (h (r, k) * s r) * W (k, q): grid point t
  writes back rows 10000 t … 10000 t + 9999, each entry of its block the vector unit's matrix product of the block's
  scaled rows with the whole weight matrix, and the ten blocks cover the array.
-/
import proofs.«155195_j18476949307699_1_alg».proof.Proof.Gen.KernelIdeal.Frame
import proofs.«155195_j18476949307699_1_alg».proof.Proof.LibGcnStages

set_option maxRecDepth 16384

noncomputable section

open scoped BigOperators

namespace Cert.KernelIdeal.Region4

open Idealize.ShloMosaic Idealize.ShloMosaic.TcCoe Idealize.ShloMosaic.ValueIdx
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of its block: the scaled row times the weights' column. -/
theorem pay_apply (x0 : Vec Ideal S10000x128 .f32) (x1 : Vec Ideal S10000x1 .f32) (x2 : Vec Ideal S128x16 .f32)
    (p : Fin 10000) (q : Fin 16) :
    k4_pay1 x0 x1 x2 (ix2 p q) = ∑ k : Fin 128, (x0 (ix2 p k) * x1 (ix2 p (0 : Fin 1))) * x2 (ix2 k q) := by
  unfold k4_pay1
  refine (block_scaleMul (n := 10000) (Fi := 128) (Fo := 16) _ none _ _ (shapeCast S10000x128 x0 shapeCasts_S10000x128_S10000x128) (shapeCast S10000x1 x1 shapeCasts_S10000x1_S10000x1) x2 p q).trans ?_
  rw [shapeCast_self, shapeCast_self]

/-- The printed index maps over the grid: the row windows move with the point, the weights stay. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row `p` of point `t`'s block is row `10000 t + p` of the array. -/
def row (t : Fin cfg4.N) (p : Fin 10000) : Fin 100000 :=
  ⟨t.val * 10000 + p.val, by have ht : t.val < 10 := N_4 ▸ t.isLt; have := p.isLt; omega⟩

/-- What point `t` writes back is block `t` of the stage's array. -/
theorem flushed_eq (c : Dev nD) (t : Fin cfg4.N) :
    (dat4 V c).flushed 3 t = ((cfg4.win 3).blk t).view.read (Elt Ideal)
      (scaleMul (N := 100000) (Fi := 128) (Fo := 16) (V c main_v42) (V c main_v43) (V c main_arg7)) := by
  show (cfg4.win 3).cut (grid4.coords t) ((dat4 V c).after 3 t) = _
  rw [after4_3]
  unfold out4_3
  rw [View.canon_unit_zero hz]
  simp only [View.ld_unit_zero (S := S10000x128) hz, View.ld_unit_zero (S := S10000x1) hz, View.ld_unit_zero (S := S128x16) hz]
  obtain ⟨e0, e1, e2, e3, e4, e5, e6, e7⟩ := idx_facts t
  funext j
  obtain ⟨p, q, rfl⟩ : ∃ (p : Fin 10000) (q : Fin 16), j = ix2 p q := ⟨j 0, j 1, eq_ix2 j⟩
  have h0 (k : Fin 128) : ((cfg4.win 0).blk t).view.emb (ix2 p k) = ix2 (row t p) k := by
    funext a; apply Fin.ext
    match a with
    | ⟨0, _⟩ => show win4_0.index t (0 : Fin 2) * 10000 + 1 * p.val = t.val * 10000 + p.val; omega
    | ⟨1, _⟩ => show win4_0.index t (1 : Fin 2) * 128 + 1 * k.val = k.val; omega
  have h1 : ((cfg4.win 1).blk t).view.emb (ix2 p (0 : Fin 1)) = ix2 (row t p) (0 : Fin 1) := by
    funext a; apply Fin.ext
    match a with
    | ⟨0, _⟩ => show win4_1.index t (0 : Fin 2) * 10000 + 1 * p.val = t.val * 10000 + p.val; omega
    | ⟨1, _⟩ => show win4_1.index t (1 : Fin 2) * 1 + 1 * 0 = 0; omega
  have h2 (k : Fin 128) : ((cfg4.win 2).blk t).view.emb (ix2 k q) = ix2 k q := by
    funext a; apply Fin.ext
    match a with
    | ⟨0, _⟩ => show win4_2.index t (0 : Fin 2) * 128 + 1 * k.val = k.val; omega
    | ⟨1, _⟩ => show win4_2.index t (1 : Fin 2) * 16 + 1 * q.val = q.val; omega
  have h3 : ((cfg4.win 3).blk t).view.emb (ix2 p q) = ix2 (row t p) q := by
    funext a; apply Fin.ext
    match a with
    | ⟨0, _⟩ => show win4_3.index t (0 : Fin 2) * 10000 + 1 * p.val = t.val * 10000 + p.val; omega
    | ⟨1, _⟩ => show win4_3.index t (1 : Fin 2) * 16 + 1 * q.val = q.val; omega
  refine (pay_apply (iblk4 V c 0 t) (iblk4 V c 1 t) (iblk4 V c 2 t) p q).trans ?_
  refine Eq.trans ?_ (congrArg (scaleMul (N := 100000) (Fi := 128) (Fo := 16) (V c main_v42) (V c main_v43) (V c main_arg7)) h3).symm
  rw [scaleMul_apply]
  refine Finset.sum_congr rfl fun k _ => ?_
  have q0 : iblk4 V c 0 t (ix2 p k) = V c main_v42 (ix2 (row t p) k) := congrArg (V c main_v42) (h0 k)
  have q1 : iblk4 V c 1 t (ix2 p (0 : Fin 1)) = V c main_v43 (ix2 (row t p) (0 : Fin 1)) := congrArg (V c main_v43) h1
  have q2 : iblk4 V c 2 t (ix2 k q) = V c main_arg7 (ix2 k q) := congrArg (V c main_arg7) (h2 k)
  rw [q0, q1, q2]

/-- An index of the array is in point `t`'s block iff each coordinate is in the block's range on its axis. -/
theorem mem_blk (t : Fin cfg4.N) (i : S100000x16.Idx) :
    i ∈ ((cfg4.win 3).blk t).view.set ↔ ∀ a : Fin 2, win4_3.index t a * S10000x16.size a ≤ (i a).val ∧ (i a).val < win4_3.index t a * S10000x16.size a + S10000x16.size a := by
  show i ∈ ((View.whole main_v44).slice (win4_3.rect t)).set ↔ _
  rw [View.set_slice_whole, Rect.mem_set_unit]
  exact Iff.rfl

/-- Every entry of the array is in the block of the point its row falls in. -/
theorem cover (i : S100000x16.Idx) : ∃ t : Fin cfg4.N, (cfg4.win 3).flush t = true ∧ i ∈ ((cfg4.win 3).blk t).view.set := by
  have hi0 : (i 0).val < 100000 := (i 0).isLt
  have hi1 : (i 1).val < 16 := (i 1).isLt
  let t : Fin cfg4.N := ⟨(i 0).val / 10000, by rw [show cfg4.N = 10 from N_4]; omega⟩
  have ht : t.val = (i 0).val / 10000 := rfl
  obtain ⟨e0, e1, e2, e3, e4, e5, e6, e7⟩ := idx_facts t
  refine ⟨t, flush4_3 t, ?_⟩
  rw [mem_blk]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 16 ≤ (i 1).val ∧ (i 1).val < win4_3.index t (1 : Fin 2) * 16 + 16; omega

/-- The region's output array after the region. -/
theorem arr (c : Dev nD) : (dat4 V c).arrAt 3 cfg4.N
    = scaleMul (N := 100000) (Fi := 128) (Fo := 16) (V c main_v42) (V c main_v43) (V c main_arg7) :=
  (dat4 V c).arrAt_eq_of_cover 3 _ (fun t _ => flushed_eq V c t) (cover)

end Cert.KernelIdeal.Region4

end
-- ==== Proof.Region5.lean ====
/-
  Region 5 of the idealized kernel: the stage after the aggregation on blocks of 10000 rows. At any contents of the
  buffers when the region is entered, the region's output array ends, at entry (r, q), as the aggregate's entry
  scaled by the node's factor plus the bias at q, through the logistic function plus the small constant: logistic (a (r, q) * s r + b q) + ε: grid
  point t writes back rows 10000 t … 10000 t + 9999, each entry computed from the same entry of the aggregate's block,
  the factor of its row and the bias of its column, and the ten blocks cover the array.
-/
import proofs.«155195_j18476949307699_1_alg».proof.Proof.Gen.KernelIdeal.Frame
import proofs.«155195_j18476949307699_1_alg».proof.Proof.LibGcnStages

set_option maxRecDepth 16384

noncomputable section

namespace Cert.KernelIdeal.Region5

open Idealize.ShloMosaic Idealize.ShloMosaic.TcCoe Idealize.ShloMosaic.ValueIdx
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of its block. -/
theorem pay_apply (x0 : Vec Ideal S10000x16 .f32) (x1 : Vec Ideal S10000x1 .f32) (x2 : Vec Ideal S1x16 .f32)
    (p : Fin 10000) (q : Fin 16) :
    k5_pay1 x0 x1 x2 (ix2 p q) = Ideal.logistic (x0 (ix2 p q) * x1 (ix2 p (0 : Fin 1)) + x2 (ix2 (0 : Fin 1) q)) + Ideal.ofBits .f32 0x322BCC77#32 := by
  unfold k5_pay1
  have e := block_scaleBias (n := 10000) (Fo := 16) broadcasts_S10000x1_S10000x16 broadcasts_S1x16_S10000x16
    (shapeCast S10000x16 x0 shapeCasts_S10000x16_S10000x16) (shapeCast S10000x1 x1 shapeCasts_S10000x1_S10000x1)
    (shapeCast S1x16 x2 shapeCasts_S1x16_S1x16) p q
  have e0 : shapeCast S10000x16 x0 shapeCasts_S10000x16_S10000x16 = x0 := shapeCast_self x0 _
  have e1 : shapeCast S10000x1 x1 shapeCasts_S10000x1_S10000x1 = x1 := shapeCast_self x1 _
  have e2 : shapeCast S1x16 x2 shapeCasts_S1x16_S1x16 = x2 := shapeCast_self x2 _
  refine (congrArg (fun z => Ideal.logistic z + Ideal.ofBits .f32 0x322BCC77#32) e).trans ?_
  rw [e0, e1, e2]

/-- The printed index maps over the grid: the row windows move with the point, the bias row stays. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row `p` of point `t`'s block is row `10000 t + p` of the array. -/
def row (t : Fin cfg5.N) (p : Fin 10000) : Fin 100000 :=
  ⟨t.val * 10000 + p.val, by have ht : t.val < 10 := N_5 ▸ t.isLt; have := p.isLt; omega⟩

/-- What point `t` writes back is block `t` of the stage's array. -/
theorem flushed_eq (c : Dev nD) (t : Fin cfg5.N) :
    (dat5 V c).flushed 3 t = ((cfg5.win 3).blk t).view.read (Elt Ideal)
      (logisticStage (N := 100000) (Fo := 16) (V c main_v54) (V c main_v55) (V c main_v56)) := by
  show (cfg5.win 3).cut (grid5.coords t) ((dat5 V c).after 3 t) = _
  rw [after5_3]
  unfold out5_3
  rw [View.canon_unit_zero hz]
  simp only [View.ld_unit_zero (S := S10000x16) hz, View.ld_unit_zero (S := S10000x1) hz, View.ld_unit_zero (S := S1x16) hz]
  obtain ⟨e0, e1, e2, e3, e4, e5, e6, e7⟩ := idx_facts t
  funext j
  obtain ⟨p, q, rfl⟩ : ∃ (p : Fin 10000) (q : Fin 16), j = ix2 p q := ⟨j 0, j 1, eq_ix2 j⟩
  have h0 : ((cfg5.win 0).blk t).view.emb (ix2 p q) = ix2 (row t p) q := by
    funext a; apply Fin.ext
    match a with
    | ⟨0, _⟩ => show win5_0.index t (0 : Fin 2) * 10000 + 1 * p.val = t.val * 10000 + p.val; omega
    | ⟨1, _⟩ => show win5_0.index t (1 : Fin 2) * 16 + 1 * q.val = q.val; omega
  have h1 : ((cfg5.win 1).blk t).view.emb (ix2 p (0 : Fin 1)) = ix2 (row t p) (0 : Fin 1) := by
    funext a; apply Fin.ext
    match a with
    | ⟨0, _⟩ => show win5_1.index t (0 : Fin 2) * 10000 + 1 * p.val = t.val * 10000 + p.val; omega
    | ⟨1, _⟩ => show win5_1.index t (1 : Fin 2) * 1 + 1 * 0 = 0; omega
  have h2 : ((cfg5.win 2).blk t).view.emb (ix2 (0 : Fin 1) q) = ix2 (0 : Fin 1) q := by
    funext a; apply Fin.ext
    match a with
    | ⟨0, _⟩ => show win5_2.index t (0 : Fin 2) * 1 + 1 * 0 = 0; omega
    | ⟨1, _⟩ => show win5_2.index t (1 : Fin 2) * 16 + 1 * q.val = q.val; omega
  have h3 : ((cfg5.win 3).blk t).view.emb (ix2 p q) = ix2 (row t p) q := by
    funext a; apply Fin.ext
    match a with
    | ⟨0, _⟩ => show win5_3.index t (0 : Fin 2) * 10000 + 1 * p.val = t.val * 10000 + p.val; omega
    | ⟨1, _⟩ => show win5_3.index t (1 : Fin 2) * 16 + 1 * q.val = q.val; omega
  refine (pay_apply (iblk5 V c 0 t) (iblk5 V c 1 t) (iblk5 V c 2 t) p q).trans ?_
  refine Eq.trans ?_ (congrArg (logisticStage (N := 100000) (Fo := 16) (V c main_v54) (V c main_v55) (V c main_v56)) h3).symm
  rw [logisticStage_apply]
  have q0 : iblk5 V c 0 t (ix2 p q) = V c main_v54 (ix2 (row t p) q) := congrArg (V c main_v54) h0
  have q1 : iblk5 V c 1 t (ix2 p (0 : Fin 1)) = V c main_v55 (ix2 (row t p) (0 : Fin 1)) := congrArg (V c main_v55) h1
  have q2 : iblk5 V c 2 t (ix2 (0 : Fin 1) q) = V c main_v56 (ix2 (0 : Fin 1) q) := congrArg (V c main_v56) h2
  rw [q0, q1, q2]

/-- An index of the array is in point `t`'s block iff each coordinate is in the block's range on its axis. -/
theorem mem_blk (t : Fin cfg5.N) (i : S100000x16.Idx) :
    i ∈ ((cfg5.win 3).blk t).view.set ↔ ∀ a : Fin 2, win5_3.index t a * S10000x16.size a ≤ (i a).val ∧ (i a).val < win5_3.index t a * S10000x16.size a + S10000x16.size a := by
  show i ∈ ((View.whole main_v57).slice (win5_3.rect t)).set ↔ _
  rw [View.set_slice_whole, Rect.mem_set_unit]
  exact Iff.rfl

/-- Every entry of the array is in the block of the point its row falls in. -/
theorem cover (i : S100000x16.Idx) : ∃ t : Fin cfg5.N, (cfg5.win 3).flush t = true ∧ i ∈ ((cfg5.win 3).blk t).view.set := by
  have hi0 : (i 0).val < 100000 := (i 0).isLt
  have hi1 : (i 1).val < 16 := (i 1).isLt
  let t : Fin cfg5.N := ⟨(i 0).val / 10000, by rw [show cfg5.N = 10 from N_5]; omega⟩
  have ht : t.val = (i 0).val / 10000 := rfl
  obtain ⟨e0, e1, e2, e3, e4, e5, e6, e7⟩ := idx_facts t
  refine ⟨t, flush5_3 t, ?_⟩
  rw [mem_blk]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 16 ≤ (i 1).val ∧ (i 1).val < win5_3.index t (1 : Fin 2) * 16 + 16; omega

/-- The region's output array after the region. -/
theorem arr (c : Dev nD) : (dat5 V c).arrAt 3 cfg5.N
    = logisticStage (N := 100000) (Fo := 16) (V c main_v54) (V c main_v55) (V c main_v56) :=
  (dat5 V c).arrAt_eq_of_cover 3 _ (fun t _ => flushed_eq V c t) (cover)

end Cert.KernelIdeal.Region5

end
-- ==== Proof.RefValue.lean ====
/-
  The reference's result as a composition of named stages, in the reference's own operations on whole arrays.

  * `nodeFactor A`: from a list of node indices, the number of times each node occurs (a scatter-add of ones into
    zeros), at least one, to the power -1/2 — the out-degree factor from the sources, the in-degree factor from the
    destinations.
  * `srcIdx A`: the source indices as a column, a negative index moved up by the number of nodes first.
  * `pre`: the rows scaled by the out-degree factors, times the weights.
  * `agg`: the rows gathered at the sources and scatter-added at the destinations into zeros.
  * `relu` / `logistic`: the aggregate's rows scaled by the in-degree factors, plus the bias along every row,
    rectified, or through 1 / (1 + exp (-x)) plus the small constant.

  The printed result term is the third layer's logistic stage of the aggregate of the third layer's first stage of
  the second layer's output, and so on down to the features: this holds by unfolding the names (`res_eq`). The dense
  stages are the stage functions read entry by entry (the host's forms of the stage functions), at the column of factors
  `broadcastInDim [N, 1] [0] f` and the bias row `broadcastInDim [1, n] [1] b`.
-/
import proofs.«155195_j18476949307699_1_alg».proof.Proof.Gen.ReferenceIdeal.Run
import proofs.«155195_j18476949307699_1_alg».proof.Proof.LibGcnStages

noncomputable section

namespace Cert.ReferenceIdeal.RefValue

open Cert.ReferenceIdeal Cert.ReferenceIdeal.Gen Idealize.ShloMosaic Idealize.ShloMosaic.TcCoe Idealize.SL.Sem Cert.Gcn

/-- A node's degree: the number of times it occurs in the index list, a scatter-add of ones into zeros. -/
def degree (A : IVec S1600000 32) : FVec Ideal S100000 .f32 :=
  Host.scatterAdd scatter_S100000_S1600000x1_S1600000_n_0_0_1 (broadcastInDim S100000 ![] bcast_S_S100000 (constant (F := Ideal) S_ .f32 0x00000000#32)) (broadcastInDim S1600000x1 ![0] bcast_S1600000_S1600000x1_0 A) (broadcastInDim S1600000 ![] bcast_S_S1600000 (constant (F := Ideal) S_ .f32 0x3F800000#32))

/-- A degree vector raised to at least one. -/
def atLeastOne (Z : FVec Ideal S100000 .f32) : FVec Ideal S100000 .f32 :=
  maximumf (broadcastInDim S100000 ![] bcast_S_S100000 (id (constant (F := Ideal) S_ .f32 0x3F800000#32))) Z

/-- A node's factor: its degree, at least one, to the power -1/2. -/
def nodeFactor (A : IVec S1600000 32) : FVec Ideal S100000 .f32 :=
  Host.powf (atLeastOne (degree A)) (broadcastInDim S100000 ![] bcast_S_S100000 (constant (F := Ideal) S_ .f32 0xBF000000#32))

/-- The source indices as a column, negative ones wrapped once. -/
def srcIdx (A : IVec S1600000 32) : IVec S1600000x1 32 :=
  broadcastInDim S1600000x1 ![0] bcast_S1600000_S1600000x1_0 (select (cmpi .slt A (broadcastInDim S1600000 ![] bcast_S_S1600000 (constantI S_ 32 0#32))) (addi A (broadcastInDim S1600000 ![] bcast_S_S1600000 (constantI S_ 32 100000#32))) A)

/-- A vector of node factors as a column. -/
def col (f : FVec Ideal S100000 .f32) : FVec Ideal S100000x1 .f32 := broadcastInDim S100000x1 ![0] bcast_S100000_S100000x1_0 f
/-- A bias vector as a row. -/
def row128 (b : FVec Ideal S128 .f32) : FVec Ideal S1x128 .f32 := broadcastInDim S1x128 ![1] bcast_S128_S1x128_1 b
def row16 (b : FVec Ideal S16 .f32) : FVec Ideal S1x16 .f32 := broadcastInDim S1x16 ![1] bcast_S16_S1x16_1 b

def pre128 (h : FVec Ideal S100000x128 .f32) (f : FVec Ideal S100000 .f32) (W : FVec Ideal S128x128 .f32) : FVec Ideal S100000x128 .f32 :=
  Host.dotGeneral dot_S100000x128_S128x128_S100000x128_1_0_0_1_n_n none (mulf h (broadcastInDim S100000x128 ![0, 1] bcast_S100000x1_S100000x128_0_1 (broadcastInDim S100000x1 ![0] bcast_S100000_S100000x1_0 f))) W
def pre16 (h : FVec Ideal S100000x128 .f32) (f : FVec Ideal S100000 .f32) (W : FVec Ideal S128x16 .f32) : FVec Ideal S100000x16 .f32 :=
  Host.dotGeneral dot_S100000x128_S128x16_S100000x16_1_0_0_1_n_n none (mulf h (broadcastInDim S100000x128 ![0, 1] bcast_S100000x1_S100000x128_0_1 (broadcastInDim S100000x1 ![0] bcast_S100000_S100000x1_0 f))) W
def agg128 (hw : FVec Ideal S100000x128 .f32) (A1 A2 : IVec S1600000 32) : FVec Ideal S100000x128 .f32 :=
  Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 A2) (Host.gather gather_S100000x128_S1600000x1_S1600000x128_1_0_n_n_0_1_1128 hw (srcIdx A1))
def agg16 (hw : FVec Ideal S100000x16 .f32) (A1 A2 : IVec S1600000 32) : FVec Ideal S100000x16 .f32 :=
  Host.scatterAdd scatter_S100000x16_S1600000x1_S1600000x16_1_0_0_1 (broadcastInDim S100000x16 ![] bcast_S_S100000x16 (constant (F := Ideal) S_ .f32 0x00000000#32)) (broadcastInDim S1600000x1 ![0] bcast_S1600000_S1600000x1_0 A2) (Host.gather gather_S100000x16_S1600000x1_S1600000x16_1_0_n_n_0_1_116 hw (srcIdx A1))
def relu128 (a : FVec Ideal S100000x128 .f32) (f : FVec Ideal S100000 .f32) (b : FVec Ideal S128 .f32) : FVec Ideal S100000x128 .f32 :=
  maximumf (addf (mulf a (broadcastInDim S100000x128 ![0, 1] bcast_S100000x1_S100000x128_0_1 (broadcastInDim S100000x1 ![0] bcast_S100000_S100000x1_0 f))) (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))
def logistic16 (a : FVec Ideal S100000x16 .f32) (f : FVec Ideal S100000 .f32) (b : FVec Ideal S16 .f32) : FVec Ideal S100000x16 .f32 :=
  addf (Host.divf (broadcastInDim S100000x16 ![] bcast_S_S100000x16 (constant (F := Ideal) S_ .f32 0x3F800000#32)) (addf (broadcastInDim S100000x16 ![] bcast_S_S100000x16 (constant (F := Ideal) S_ .f32 0x3F800000#32)) (Host.exp (Host.negf (addf (mulf a (broadcastInDim S100000x16 ![0, 1] bcast_S100000x1_S100000x16_0_1 (broadcastInDim S100000x1 ![0] bcast_S100000_S100000x1_0 f))) (broadcastInDim S100000x16 ![0, 1] bcast_S1x16_S100000x16_0_1 (broadcastInDim S1x16 ![1] bcast_S16_S1x16_1 b))))))) (broadcastInDim S100000x16 ![] bcast_S_S100000x16 (constant (F := Ideal) S_ .f32 0x322BCC77#32))

/-- The three layers, composed. -/
def net (A0 : FVec Ideal S100000x128 .f32) (A1 A2 : IVec S1600000 32) (A3 : FVec Ideal S128x128 .f32) (A4 : FVec Ideal S128 .f32)
    (A5 : FVec Ideal S128x128 .f32) (A6 : FVec Ideal S128 .f32) (A7 : FVec Ideal S128x16 .f32) (A8 : FVec Ideal S16 .f32) :
    FVec Ideal S100000x16 .f32 :=
  logistic16 (agg16 (pre16 (relu128 (agg128 (pre128 (relu128 (agg128 (pre128 A0 (nodeFactor A1) A3) A1 A2) (nodeFactor A2) A4)
    (nodeFactor A1) A5) A1 A2) (nodeFactor A2) A6) (nodeFactor A1) A7) A1 A2) (nodeFactor A2) A8

set_option maxRecDepth 8192 in
/-- The printed result term is the composition. -/
theorem res_eq (m : (ℓ : Loc nD τ sig) → Buf (Elt Ideal) ℓ) (c : Dev nD) :
    Cert.ReferenceIdeal.Value.res_main_v82 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := rfl

/-! ## The dense stages, entry by entry -/

theorem pre128_eq (h : FVec Ideal S100000x128 .f32) (f : FVec Ideal S100000 .f32) (W : FVec Ideal S128x128 .f32) :
    pre128 h f W = scaleMul (N := 100000) (Fi := 128) (Fo := 128) h (col f) W :=
  host_scaleMul (N := 100000) (Fi := 128) (Fo := 128) _ none _ h (col f) W

theorem pre16_eq (h : FVec Ideal S100000x128 .f32) (f : FVec Ideal S100000 .f32) (W : FVec Ideal S128x16 .f32) :
    pre16 h f W = scaleMul (N := 100000) (Fi := 128) (Fo := 16) h (col f) W :=
  host_scaleMul (N := 100000) (Fi := 128) (Fo := 16) _ none _ h (col f) W

theorem relu128_eq (a : FVec Ideal S100000x128 .f32) (f : FVec Ideal S100000 .f32) (b : FVec Ideal S128 .f32) :
    relu128 a f b = reluStage (N := 100000) (Fo := 128) a (col f) (row128 b) :=
  host_reluStage (N := 100000) (Fo := 128) _ _ _ a (col f) (row128 b)

theorem logistic16_eq (a : FVec Ideal S100000x16 .f32) (f : FVec Ideal S100000 .f32) (b : FVec Ideal S16 .f32) :
    logistic16 a f b = logisticStage (N := 100000) (Fo := 16) a (col f) (row16 b) :=
  host_logisticStage (N := 100000) (Fo := 16) _ _ _ a (col f) (row16 b)

end Cert.ReferenceIdeal.RefValue

end
-- ==== Proof.Stretches.lean ====
/-
  The kernel's stretches of host operations between its regions, each read as a function of the buffer contents it
  starts from (any contents): the buffer a stretch writes holds the stretch's operations applied to the contents of
  the buffers it reads, and a buffer it does not write keeps its contents.

  * The stretch before the first region raises the two clipped degree vectors to the power -1/2 and reshapes the
    out-degree factors to a column.
  * The stretch before each region of the second kind gathers the rows of the previous region's output at the edge
    sources and scatter-adds them at the edge destinations into zeros (the reference's aggregation, with the same
    dimension numbers), reshapes the in-degree factors to a column and the layer's bias to a row.
  * The stretch before each later region of the first kind reshapes the out-degree factors to a column.
-/
import proofs.«155195_j18476949307699_1_alg».proof.Proof.Gen.KernelIdeal.Launch
import proofs.«155195_j18476949307699_1_alg».proof.Proof.RefValue
import Idealize.ShloMosaic.Lib.StableHlo.Run

set_option maxRecDepth 16384

noncomputable section

namespace Cert.KernelIdeal.Chain

open Idealize.ShloMosaic Idealize.ShloMosaic.TcCoe Idealize.ShloMosaic.StableHlo Idealize.SL.Sem
open Cert.KernelIdeal Cert.KernelIdeal.Gen Cert.ReferenceIdeal.RefValue

set_option maxHeartbeats 1000000 in
theorem s04_v10 (V : Valuation τ sig (Elt Ideal)) :
    StableHlo.after hostOps0_4 V (Proc.devRef .tc main_v10) = Host.powf (V (Proc.devRef .tc main_v4)) (broadcastInDim S100000 ![] bcast_S_S100000 (constant (F := Ideal) S_ .f32 0xBF000000#32)) := by
  dsimp only [hostOps0_4]; after_results_simp <;> rfl
set_option maxHeartbeats 1000000 in
theorem s04_v12 (V : Valuation τ sig (Elt Ideal)) :
    StableHlo.after hostOps0_4 V (Proc.devRef .tc main_v12) = Host.powf (V (Proc.devRef .tc main_v8)) (broadcastInDim S100000 ![] bcast_S_S100000 (constant (F := Ideal) S_ .f32 0xBF000000#32)) := by
  dsimp only [hostOps0_4]; after_results_simp <;> rfl
set_option maxHeartbeats 1000000 in
theorem s04_v13 (V : Valuation τ sig (Elt Ideal)) :
    StableHlo.after hostOps0_4 V (Proc.devRef .tc main_v13) = shapeCast S100000x1 (Host.powf (V (Proc.devRef .tc main_v4)) (broadcastInDim S100000 ![] bcast_S_S100000 (constant (F := Ideal) S_ .f32 0xBF000000#32))) shapeCasts_S100000_S100000x1 := by
  dsimp only [hostOps0_4]; after_results_simp <;> rfl
set_option maxHeartbeats 1000000 in
theorem s04_keep_arg0 (V : Valuation τ sig (Elt Ideal)) :
    StableHlo.after hostOps0_4 V (Proc.devRef .tc main_arg0) = V (Proc.devRef .tc main_arg0) := by
  dsimp only [hostOps0_4]; after_results_simp <;> rfl
set_option maxHeartbeats 1000000 in
theorem s04_keep_arg1 (V : Valuation τ sig (Elt Ideal)) :
    StableHlo.after hostOps0_4 V (Proc.devRef .tc main_arg1) = V (Proc.devRef .tc main_arg1) := by
  dsimp only [hostOps0_4]; after_results_simp <;> rfl
set_option maxHeartbeats 1000000 in
theorem s04_keep_arg2 (V : Valuation τ sig (Elt Ideal)) :
    StableHlo.after hostOps0_4 V (Proc.devRef .tc main_arg2) = V (Proc.devRef .tc main_arg2) := by
  dsimp only [hostOps0_4]; after_results_simp <;> rfl
set_option maxHeartbeats 1000000 in
theorem s04_keep_arg3 (V : Valuation τ sig (Elt Ideal)) :
    StableHlo.after hostOps0_4 V (Proc.devRef .tc main_arg3) = V (Proc.devRef .tc main_arg3) := by
  dsimp only [hostOps0_4]; after_results_simp <;> rfl
set_option maxHeartbeats 1000000 in
theorem s04_keep_arg4 (V : Valuation τ sig (Elt Ideal)) :
    StableHlo.after hostOps0_4 V (Proc.devRef .tc main_arg4) = V (Proc.devRef .tc main_arg4) := by
  dsimp only [hostOps0_4]; after_results_simp <;> rfl
set_option maxHeartbeats 1000000 in
theorem s04_keep_arg5 (V : Valuation τ sig (Elt Ideal)) :
    StableHlo.after hostOps0_4 V (Proc.devRef .tc main_arg5) = V (Proc.devRef .tc main_arg5) := by
  dsimp only [hostOps0_4]; after_results_simp <;> rfl
set_option maxHeartbeats 1000000 in
theorem s04_keep_arg6 (V : Valuation τ sig (Elt Ideal)) :
    StableHlo.after hostOps0_4 V (Proc.devRef .tc main_arg6) = V (Proc.devRef .tc main_arg6) := by
  dsimp only [hostOps0_4]; after_results_simp <;> rfl
set_option maxHeartbeats 1000000 in
theorem s04_keep_arg7 (V : Valuation τ sig (Elt Ideal)) :
    StableHlo.after hostOps0_4 V (Proc.devRef .tc main_arg7) = V (Proc.devRef .tc main_arg7) := by
  dsimp only [hostOps0_4]; after_results_simp <;> rfl
set_option maxHeartbeats 1000000 in
theorem s04_keep_arg8 (V : Valuation τ sig (Elt Ideal)) :
    StableHlo.after hostOps0_4 V (Proc.devRef .tc main_arg8) = V (Proc.devRef .tc main_arg8) := by
  dsimp only [hostOps0_4]; after_results_simp <;> rfl
set_option maxHeartbeats 1000000 in
theorem s1_v24 (V : Valuation τ sig (Elt Ideal)) :
    StableHlo.after hostOps1 V (Proc.devRef .tc main_v24) = agg128 (V (Proc.devRef .tc main_v14)) (V (Proc.devRef .tc main_arg1)) (V (Proc.devRef .tc main_arg2)) := by
  dsimp only [hostOps1]; after_results_simp <;> rfl
set_option maxHeartbeats 1000000 in
theorem s1_v25 (V : Valuation τ sig (Elt Ideal)) :
    StableHlo.after hostOps1 V (Proc.devRef .tc main_v25) = shapeCast S100000x1 (V (Proc.devRef .tc main_v12)) shapeCasts_S100000_S100000x1 := by
  dsimp only [hostOps1]; after_results_simp <;> rfl
set_option maxHeartbeats 1000000 in
theorem s1_v26 (V : Valuation τ sig (Elt Ideal)) :
    StableHlo.after hostOps1 V (Proc.devRef .tc main_v26) = shapeCast S1x128 (V (Proc.devRef .tc main_arg4)) shapeCasts_S128_S1x128 := by
  dsimp only [hostOps1]; after_results_simp <;> rfl
set_option maxHeartbeats 1000000 in
theorem s3_v39 (V : Valuation τ sig (Elt Ideal)) :
    StableHlo.after hostOps3 V (Proc.devRef .tc main_v39) = agg128 (V (Proc.devRef .tc main_v29)) (V (Proc.devRef .tc main_arg1)) (V (Proc.devRef .tc main_arg2)) := by
  dsimp only [hostOps3]; after_results_simp <;> rfl
set_option maxHeartbeats 1000000 in
theorem s3_v40 (V : Valuation τ sig (Elt Ideal)) :
    StableHlo.after hostOps3 V (Proc.devRef .tc main_v40) = shapeCast S100000x1 (V (Proc.devRef .tc main_v12)) shapeCasts_S100000_S100000x1 := by
  dsimp only [hostOps3]; after_results_simp <;> rfl
set_option maxHeartbeats 1000000 in
theorem s3_v41 (V : Valuation τ sig (Elt Ideal)) :
    StableHlo.after hostOps3 V (Proc.devRef .tc main_v41) = shapeCast S1x128 (V (Proc.devRef .tc main_arg6)) shapeCasts_S128_S1x128 := by
  dsimp only [hostOps3]; after_results_simp <;> rfl
set_option maxHeartbeats 1000000 in
theorem s5_v54 (V : Valuation τ sig (Elt Ideal)) :
    StableHlo.after hostOps5 V (Proc.devRef .tc main_v54) = agg16 (V (Proc.devRef .tc main_v44)) (V (Proc.devRef .tc main_arg1)) (V (Proc.devRef .tc main_arg2)) := by
  dsimp only [hostOps5]; after_results_simp <;> rfl
set_option maxHeartbeats 1000000 in
theorem s5_v55 (V : Valuation τ sig (Elt Ideal)) :
    StableHlo.after hostOps5 V (Proc.devRef .tc main_v55) = shapeCast S100000x1 (V (Proc.devRef .tc main_v12)) shapeCasts_S100000_S100000x1 := by
  dsimp only [hostOps5]; after_results_simp <;> rfl
set_option maxHeartbeats 1000000 in
theorem s5_v56 (V : Valuation τ sig (Elt Ideal)) :
    StableHlo.after hostOps5 V (Proc.devRef .tc main_v56) = shapeCast S1x16 (V (Proc.devRef .tc main_arg8)) shapeCasts_S16_S1x16 := by
  dsimp only [hostOps5]; after_results_simp <;> rfl
set_option maxHeartbeats 1000000 in
theorem s2_v28 (V : Valuation τ sig (Elt Ideal)) :
    StableHlo.after hostOps2 V (Proc.devRef .tc main_v28) = shapeCast S100000x1 (V (Proc.devRef .tc main_v10)) shapeCasts_S100000_S100000x1 := by
  dsimp only [hostOps2]; after_results_simp <;> rfl
set_option maxHeartbeats 1000000 in
theorem s2_keep_v27 (V : Valuation τ sig (Elt Ideal)) :
    StableHlo.after hostOps2 V (Proc.devRef .tc main_v27) = V (Proc.devRef .tc main_v27) := by
  dsimp only [hostOps2]; after_results_simp <;> rfl
set_option maxHeartbeats 1000000 in
theorem s4_v43 (V : Valuation τ sig (Elt Ideal)) :
    StableHlo.after hostOps4 V (Proc.devRef .tc main_v43) = shapeCast S100000x1 (V (Proc.devRef .tc main_v10)) shapeCasts_S100000_S100000x1 := by
  dsimp only [hostOps4]; after_results_simp <;> rfl
set_option maxHeartbeats 1000000 in
theorem s4_keep_v42 (V : Valuation τ sig (Elt Ideal)) :
    StableHlo.after hostOps4 V (Proc.devRef .tc main_v42) = V (Proc.devRef .tc main_v42) := by
  dsimp only [hostOps4]; after_results_simp <;> rfl
set_option maxHeartbeats 1000000 in
theorem s1_keep_arg1 (V : Valuation τ sig (Elt Ideal)) :
    StableHlo.after hostOps1 V (Proc.devRef .tc main_arg1) = V (Proc.devRef .tc main_arg1) := by
  dsimp only [hostOps1]; after_results_simp <;> rfl
set_option maxHeartbeats 1000000 in
theorem s1_keep_arg2 (V : Valuation τ sig (Elt Ideal)) :
    StableHlo.after hostOps1 V (Proc.devRef .tc main_arg2) = V (Proc.devRef .tc main_arg2) := by
  dsimp only [hostOps1]; after_results_simp <;> rfl
set_option maxHeartbeats 1000000 in
theorem s1_keep_v12 (V : Valuation τ sig (Elt Ideal)) :
    StableHlo.after hostOps1 V (Proc.devRef .tc main_v12) = V (Proc.devRef .tc main_v12) := by
  dsimp only [hostOps1]; after_results_simp <;> rfl
set_option maxHeartbeats 1000000 in
theorem s1_keep_v10 (V : Valuation τ sig (Elt Ideal)) :
    StableHlo.after hostOps1 V (Proc.devRef .tc main_v10) = V (Proc.devRef .tc main_v10) := by
  dsimp only [hostOps1]; after_results_simp <;> rfl
set_option maxHeartbeats 1000000 in
theorem s1_keep_arg5 (V : Valuation τ sig (Elt Ideal)) :
    StableHlo.after hostOps1 V (Proc.devRef .tc main_arg5) = V (Proc.devRef .tc main_arg5) := by
  dsimp only [hostOps1]; after_results_simp <;> rfl
set_option maxHeartbeats 1000000 in
theorem s1_keep_arg6 (V : Valuation τ sig (Elt Ideal)) :
    StableHlo.after hostOps1 V (Proc.devRef .tc main_arg6) = V (Proc.devRef .tc main_arg6) := by
  dsimp only [hostOps1]; after_results_simp <;> rfl
set_option maxHeartbeats 1000000 in
theorem s1_keep_arg7 (V : Valuation τ sig (Elt Ideal)) :
    StableHlo.after hostOps1 V (Proc.devRef .tc main_arg7) = V (Proc.devRef .tc main_arg7) := by
  dsimp only [hostOps1]; after_results_simp <;> rfl
set_option maxHeartbeats 1000000 in
theorem s1_keep_arg8 (V : Valuation τ sig (Elt Ideal)) :
    StableHlo.after hostOps1 V (Proc.devRef .tc main_arg8) = V (Proc.devRef .tc main_arg8) := by
  dsimp only [hostOps1]; after_results_simp <;> rfl
set_option maxHeartbeats 1000000 in
theorem s2_keep_arg1 (V : Valuation τ sig (Elt Ideal)) :
    StableHlo.after hostOps2 V (Proc.devRef .tc main_arg1) = V (Proc.devRef .tc main_arg1) := by
  dsimp only [hostOps2]; after_results_simp <;> rfl
set_option maxHeartbeats 1000000 in
theorem s2_keep_arg2 (V : Valuation τ sig (Elt Ideal)) :
    StableHlo.after hostOps2 V (Proc.devRef .tc main_arg2) = V (Proc.devRef .tc main_arg2) := by
  dsimp only [hostOps2]; after_results_simp <;> rfl
set_option maxHeartbeats 1000000 in
theorem s2_keep_v12 (V : Valuation τ sig (Elt Ideal)) :
    StableHlo.after hostOps2 V (Proc.devRef .tc main_v12) = V (Proc.devRef .tc main_v12) := by
  dsimp only [hostOps2]; after_results_simp <;> rfl
set_option maxHeartbeats 1000000 in
theorem s2_keep_v10 (V : Valuation τ sig (Elt Ideal)) :
    StableHlo.after hostOps2 V (Proc.devRef .tc main_v10) = V (Proc.devRef .tc main_v10) := by
  dsimp only [hostOps2]; after_results_simp <;> rfl
set_option maxHeartbeats 1000000 in
theorem s2_keep_arg5 (V : Valuation τ sig (Elt Ideal)) :
    StableHlo.after hostOps2 V (Proc.devRef .tc main_arg5) = V (Proc.devRef .tc main_arg5) := by
  dsimp only [hostOps2]; after_results_simp <;> rfl
set_option maxHeartbeats 1000000 in
theorem s2_keep_arg6 (V : Valuation τ sig (Elt Ideal)) :
    StableHlo.after hostOps2 V (Proc.devRef .tc main_arg6) = V (Proc.devRef .tc main_arg6) := by
  dsimp only [hostOps2]; after_results_simp <;> rfl
set_option maxHeartbeats 1000000 in
theorem s2_keep_arg7 (V : Valuation τ sig (Elt Ideal)) :
    StableHlo.after hostOps2 V (Proc.devRef .tc main_arg7) = V (Proc.devRef .tc main_arg7) := by
  dsimp only [hostOps2]; after_results_simp <;> rfl
set_option maxHeartbeats 1000000 in
theorem s2_keep_arg8 (V : Valuation τ sig (Elt Ideal)) :
    StableHlo.after hostOps2 V (Proc.devRef .tc main_arg8) = V (Proc.devRef .tc main_arg8) := by
  dsimp only [hostOps2]; after_results_simp <;> rfl
set_option maxHeartbeats 1000000 in
theorem s3_keep_arg1 (V : Valuation τ sig (Elt Ideal)) :
    StableHlo.after hostOps3 V (Proc.devRef .tc main_arg1) = V (Proc.devRef .tc main_arg1) := by
  dsimp only [hostOps3]; after_results_simp <;> rfl
set_option maxHeartbeats 1000000 in
theorem s3_keep_arg2 (V : Valuation τ sig (Elt Ideal)) :
    StableHlo.after hostOps3 V (Proc.devRef .tc main_arg2) = V (Proc.devRef .tc main_arg2) := by
  dsimp only [hostOps3]; after_results_simp <;> rfl
set_option maxHeartbeats 1000000 in
theorem s3_keep_v12 (V : Valuation τ sig (Elt Ideal)) :
    StableHlo.after hostOps3 V (Proc.devRef .tc main_v12) = V (Proc.devRef .tc main_v12) := by
  dsimp only [hostOps3]; after_results_simp <;> rfl
set_option maxHeartbeats 1000000 in
theorem s3_keep_v10 (V : Valuation τ sig (Elt Ideal)) :
    StableHlo.after hostOps3 V (Proc.devRef .tc main_v10) = V (Proc.devRef .tc main_v10) := by
  dsimp only [hostOps3]; after_results_simp <;> rfl
set_option maxHeartbeats 1000000 in
theorem s3_keep_arg7 (V : Valuation τ sig (Elt Ideal)) :
    StableHlo.after hostOps3 V (Proc.devRef .tc main_arg7) = V (Proc.devRef .tc main_arg7) := by
  dsimp only [hostOps3]; after_results_simp <;> rfl
set_option maxHeartbeats 1000000 in
theorem s3_keep_arg8 (V : Valuation τ sig (Elt Ideal)) :
    StableHlo.after hostOps3 V (Proc.devRef .tc main_arg8) = V (Proc.devRef .tc main_arg8) := by
  dsimp only [hostOps3]; after_results_simp <;> rfl
set_option maxHeartbeats 1000000 in
theorem s4_keep_arg1 (V : Valuation τ sig (Elt Ideal)) :
    StableHlo.after hostOps4 V (Proc.devRef .tc main_arg1) = V (Proc.devRef .tc main_arg1) := by
  dsimp only [hostOps4]; after_results_simp <;> rfl
set_option maxHeartbeats 1000000 in
theorem s4_keep_arg2 (V : Valuation τ sig (Elt Ideal)) :
    StableHlo.after hostOps4 V (Proc.devRef .tc main_arg2) = V (Proc.devRef .tc main_arg2) := by
  dsimp only [hostOps4]; after_results_simp <;> rfl
set_option maxHeartbeats 1000000 in
theorem s4_keep_v12 (V : Valuation τ sig (Elt Ideal)) :
    StableHlo.after hostOps4 V (Proc.devRef .tc main_v12) = V (Proc.devRef .tc main_v12) := by
  dsimp only [hostOps4]; after_results_simp <;> rfl
set_option maxHeartbeats 1000000 in
theorem s4_keep_arg7 (V : Valuation τ sig (Elt Ideal)) :
    StableHlo.after hostOps4 V (Proc.devRef .tc main_arg7) = V (Proc.devRef .tc main_arg7) := by
  dsimp only [hostOps4]; after_results_simp <;> rfl
set_option maxHeartbeats 1000000 in
theorem s4_keep_arg8 (V : Valuation τ sig (Elt Ideal)) :
    StableHlo.after hostOps4 V (Proc.devRef .tc main_arg8) = V (Proc.devRef .tc main_arg8) := by
  dsimp only [hostOps4]; after_results_simp <;> rfl

end Cert.KernelIdeal.Chain

end
-- ==== Proof.Chain.lean ====
/-
  The idealized kernel's result buffer at the end of its run, as the reference's composition of stages of the
  argument arrays. The run's buffer contents are known at every boundary between a stretch of host operations and a
  region; walking forward from the launch:

  * the first stretches compute the two node-factor vectors from the index lists and reshape the out-degree factors
    to a column; the argument arrays are untouched by every stretch and every region;
  * each region of the first kind leaves in its output array the rows of its input scaled by the out-degree factors
    and multiplied by the layer's weights; each region of the second kind the aggregate's rows scaled by the
    in-degree factors plus the layer's bias, rectified (layers one and two) or through the logistic function plus the
    small constant (layer three);
  * between them the host gathers rows at the sources and scatter-adds them at the destinations, the same operations
    with the same dimension numbers as the reference's, carried here unopened; a vector reshaped to a column or a row
    is the vector broadcast along the new unit axis, which is how the reference lays the factors and the biases.
-/
import proofs.«155195_j18476949307699_1_alg».proof.Proof.Gen.KernelIdeal.Frame
import proofs.«155195_j18476949307699_1_alg».proof.Proof.Region0
import proofs.«155195_j18476949307699_1_alg».proof.Proof.Region1
import proofs.«155195_j18476949307699_1_alg».proof.Proof.Region2
import proofs.«155195_j18476949307699_1_alg».proof.Proof.Region3
import proofs.«155195_j18476949307699_1_alg».proof.Proof.Region4
import proofs.«155195_j18476949307699_1_alg».proof.Proof.Region5
import proofs.«155195_j18476949307699_1_alg».proof.Proof.RefValue
import proofs.«155195_j18476949307699_1_alg».proof.Proof.Stretches
import Idealize.ShloMosaic.Lib.StableHlo.Run

set_option maxRecDepth 16384

noncomputable section

namespace Cert.KernelIdeal.Chain

open Idealize.ShloMosaic Idealize.ShloMosaic.TcCoe Idealize.ShloMosaic.StableHlo Idealize.SL.Sem
open Cert.KernelIdeal Cert.KernelIdeal.Gen Cert.Gcn Cert.ReferenceIdeal.RefValue

variable (m : (ℓ : Loc nD τ sig) → Buf (Elt Ideal) ℓ) (ρ : Dev nD → PrngReg) (c : Dev nD)

/-! ## The argument arrays and the reference's stages of them -/

abbrev A0 : FVec Ideal S100000x128 .f32 := m ((c.tc : Thread nD τ).loc main_arg0)
abbrev A1 : IVec S1600000 32 := m ((c.tc : Thread nD τ).loc main_arg1)
abbrev A2 : IVec S1600000 32 := m ((c.tc : Thread nD τ).loc main_arg2)
abbrev A3 : FVec Ideal S128x128 .f32 := m ((c.tc : Thread nD τ).loc main_arg3)
abbrev A4 : FVec Ideal S128 .f32 := m ((c.tc : Thread nD τ).loc main_arg4)
abbrev A5 : FVec Ideal S128x128 .f32 := m ((c.tc : Thread nD τ).loc main_arg5)
abbrev A6 : FVec Ideal S128 .f32 := m ((c.tc : Thread nD τ).loc main_arg6)
abbrev A7 : FVec Ideal S128x16 .f32 := m ((c.tc : Thread nD τ).loc main_arg7)
abbrev A8 : FVec Ideal S16 .f32 := m ((c.tc : Thread nD τ).loc main_arg8)

/-- The out-degree factors (from the sources) and the in-degree factors (from the destinations). -/
def nS : FVec Ideal S100000 .f32 := nodeFactor (A1 m c)
def nT : FVec Ideal S100000 .f32 := nodeFactor (A2 m c)
/-- The factor vectors reshaped to columns, the biases to rows: what the kernel's regions are handed. -/
def colS : FVec Ideal S100000x1 .f32 := shapeCast S100000x1 (nS m c) shapeCasts_S100000_S100000x1
def colT : FVec Ideal S100000x1 .f32 := shapeCast S100000x1 (nT m c) shapeCasts_S100000_S100000x1
def rowB4 : FVec Ideal S1x128 .f32 := shapeCast S1x128 (A4 m c) shapeCasts_S128_S1x128
def rowB6 : FVec Ideal S1x128 .f32 := shapeCast S1x128 (A6 m c) shapeCasts_S128_S1x128
def rowB8 : FVec Ideal S1x16 .f32 := shapeCast S1x16 (A8 m c) shapeCasts_S16_S1x16

theorem colS_eq : colS m c = col (nS m c) := shapeCast_col_eq_broadcastInDim (n := 100000) _ _ _
theorem colT_eq : colT m c = col (nT m c) := shapeCast_col_eq_broadcastInDim (n := 100000) _ _ _
theorem rowB4_eq : rowB4 m c = row128 (A4 m c) := shapeCast_row_eq_broadcastInDim (n := 128) _ _ _
theorem rowB6_eq : rowB6 m c = row128 (A6 m c) := shapeCast_row_eq_broadcastInDim (n := 128) _ _ _
theorem rowB8_eq : rowB8 m c = row16 (A8 m c) := shapeCast_row_eq_broadcastInDim (n := 16) _ _ _

/-- The three layers' intermediate arrays, in the reference's stages. -/
def hw1 : FVec Ideal S100000x128 .f32 := pre128 (A0 m c) (nS m c) (A3 m c)
def g1 : FVec Ideal S100000x128 .f32 := agg128 (hw1 m c) (A1 m c) (A2 m c)
def h1 : FVec Ideal S100000x128 .f32 := relu128 (g1 m c) (nT m c) (A4 m c)
def hw2 : FVec Ideal S100000x128 .f32 := pre128 (h1 m c) (nS m c) (A5 m c)
def g2 : FVec Ideal S100000x128 .f32 := agg128 (hw2 m c) (A1 m c) (A2 m c)
def h2 : FVec Ideal S100000x128 .f32 := relu128 (g2 m c) (nT m c) (A6 m c)
def hw3 : FVec Ideal S100000x16 .f32 := pre16 (h2 m c) (nS m c) (A7 m c)
def g3 : FVec Ideal S100000x16 .f32 := agg16 (hw3 m c) (A1 m c) (A2 m c)
def out : FVec Ideal S100000x16 .f32 := logistic16 (g3 m c) (nT m c) (A8 m c)

theorem out_eq : out m c = net (A0 m c) (A1 m c) (A2 m c) (A3 m c) (A4 m c) (A5 m c) (A6 m c) (A7 m c) (A8 m c) := rfl

/-! ## The first stretches: from the launch memory to the first region's entry -/

/-- The clipped degree vector: the scatter-add is the reference's `degree`; the clip's buffers are read through the
    identity casts of an inlined call, removed one at a time. -/
theorem at4_v4 : W4 m ρ c (Proc.devRef .tc main_v4) = atLeastOne (degree (A1 m c)) := by
  dsimp only [W4, W3, W2, W1, hostOps0, hostOps0_1, hostOps0_2, hostOps0_3]; after_results
  have hz : (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (W0 m ρ c (Proc.devRef .tc main_arg1)))
      (broadcastInDim S1600000 ![] bcast_S_S1600000 (constant (F := Ideal) S_ .f32 0x3F800000#32)) : FVec Ideal S100000 .f32) = degree (A1 m c) := rfl
  rw [hz]
  generalize degree (A1 m c) = Z
  have e2 : (TRef.of (sig := sig) (T := ⟨S100000, .f32⟩) main_v3).ofBuf (Val := Elt Ideal) Z = Z := rfl
  rw [e2]
  have e1 : ((TRef.of (sig := sig) (T := ⟨S100000, .f32⟩) main_call0_v1).ofBuf (Val := Elt Ideal)
      ((TRef.of (sig := sig) (T := ⟨S100000, .f32⟩) main_call0_v1).toBuf (Val := Elt Ideal)
        (broadcastInDim S100000 ![] bcast_S_S100000
          ((TRef.of (sig := sig) (T := ⟨S_, .f32⟩) main_call0_v0).ofBuf (Val := Elt Ideal)
            ((TRef.of (sig := sig) (T := ⟨S_, .f32⟩) main_call0_v0).toBuf (Val := Elt Ideal)
              (id ((TRef.of (sig := sig) (T := ⟨S_, .f32⟩) main_cst_1).ofBuf (Val := Elt Ideal) (constant (F := Ideal) S_ FTy.f32 0x3F800000#32)))))))) = (broadcastInDim S100000 ![] bcast_S_S100000 (id (constant (F := Ideal) S_ .f32 0x3F800000#32)) : FVec Ideal S100000 .f32) := rfl
  rw [e1]
  rfl
/-- The clipped degree vector: the scatter-add is the reference's `degree`; the clip's buffers are read through the
    identity casts of an inlined call, removed one at a time. -/
theorem at4_v8 : W4 m ρ c (Proc.devRef .tc main_v8) = atLeastOne (degree (A2 m c)) := by
  dsimp only [W4, W3, W2, W1, hostOps0, hostOps0_1, hostOps0_2, hostOps0_3]; after_results
  have hz : (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (W0 m ρ c (Proc.devRef .tc main_arg2)))
      (broadcastInDim S1600000 ![] bcast_S_S1600000 (constant (F := Ideal) S_ .f32 0x3F800000#32)) : FVec Ideal S100000 .f32) = degree (A2 m c) := rfl
  rw [hz]
  generalize degree (A2 m c) = Z
  have e2 : (TRef.of (sig := sig) (T := ⟨S100000, .f32⟩) main_v7).ofBuf (Val := Elt Ideal) Z = Z := rfl
  rw [e2]
  have e1 : ((TRef.of (sig := sig) (T := ⟨S100000, .f32⟩) main_call1_v1).ofBuf (Val := Elt Ideal)
      ((TRef.of (sig := sig) (T := ⟨S100000, .f32⟩) main_call1_v1).toBuf (Val := Elt Ideal)
        (broadcastInDim S100000 ![] bcast_S_S100000
          ((TRef.of (sig := sig) (T := ⟨S_, .f32⟩) main_call1_v0).ofBuf (Val := Elt Ideal)
            ((TRef.of (sig := sig) (T := ⟨S_, .f32⟩) main_call1_v0).toBuf (Val := Elt Ideal)
              (id ((TRef.of (sig := sig) (T := ⟨S_, .f32⟩) main_cst_3).ofBuf (Val := Elt Ideal) (constant (F := Ideal) S_ FTy.f32 0x3F800000#32)))))))) = (broadcastInDim S100000 ![] bcast_S_S100000 (id (constant (F := Ideal) S_ .f32 0x3F800000#32)) : FVec Ideal S100000 .f32) := rfl
  rw [e1]
  rfl
theorem at4_arg0 : W4 m ρ c (Proc.devRef .tc main_arg0) = A0 m c := by
  dsimp only [W4, W3, W2, W1, hostOps0, hostOps0_1, hostOps0_2, hostOps0_3]; after_results <;> rfl
theorem at4_arg1 : W4 m ρ c (Proc.devRef .tc main_arg1) = A1 m c := by
  dsimp only [W4, W3, W2, W1, hostOps0, hostOps0_1, hostOps0_2, hostOps0_3]; after_results <;> rfl
theorem at4_arg2 : W4 m ρ c (Proc.devRef .tc main_arg2) = A2 m c := by
  dsimp only [W4, W3, W2, W1, hostOps0, hostOps0_1, hostOps0_2, hostOps0_3]; after_results <;> rfl
theorem at4_arg3 : W4 m ρ c (Proc.devRef .tc main_arg3) = A3 m c := by
  dsimp only [W4, W3, W2, W1, hostOps0, hostOps0_1, hostOps0_2, hostOps0_3]; after_results <;> rfl
theorem at4_arg4 : W4 m ρ c (Proc.devRef .tc main_arg4) = A4 m c := by
  dsimp only [W4, W3, W2, W1, hostOps0, hostOps0_1, hostOps0_2, hostOps0_3]; after_results <;> rfl
theorem at4_arg5 : W4 m ρ c (Proc.devRef .tc main_arg5) = A5 m c := by
  dsimp only [W4, W3, W2, W1, hostOps0, hostOps0_1, hostOps0_2, hostOps0_3]; after_results <;> rfl
theorem at4_arg6 : W4 m ρ c (Proc.devRef .tc main_arg6) = A6 m c := by
  dsimp only [W4, W3, W2, W1, hostOps0, hostOps0_1, hostOps0_2, hostOps0_3]; after_results <;> rfl
theorem at4_arg7 : W4 m ρ c (Proc.devRef .tc main_arg7) = A7 m c := by
  dsimp only [W4, W3, W2, W1, hostOps0, hostOps0_1, hostOps0_2, hostOps0_3]; after_results <;> rfl
theorem at4_arg8 : W4 m ρ c (Proc.devRef .tc main_arg8) = A8 m c := by
  dsimp only [W4, W3, W2, W1, hostOps0, hostOps0_1, hostOps0_2, hostOps0_3]; after_results <;> rfl
theorem at5_arg0 : W5 m ρ c (Proc.devRef .tc main_arg0) = A0 m c :=
  (s04_keep_arg0 (W4 m ρ c)).trans (at4_arg0 m ρ c)
theorem at5_arg1 : W5 m ρ c (Proc.devRef .tc main_arg1) = A1 m c :=
  (s04_keep_arg1 (W4 m ρ c)).trans (at4_arg1 m ρ c)
theorem at5_arg2 : W5 m ρ c (Proc.devRef .tc main_arg2) = A2 m c :=
  (s04_keep_arg2 (W4 m ρ c)).trans (at4_arg2 m ρ c)
theorem at5_arg3 : W5 m ρ c (Proc.devRef .tc main_arg3) = A3 m c :=
  (s04_keep_arg3 (W4 m ρ c)).trans (at4_arg3 m ρ c)
theorem at5_arg4 : W5 m ρ c (Proc.devRef .tc main_arg4) = A4 m c :=
  (s04_keep_arg4 (W4 m ρ c)).trans (at4_arg4 m ρ c)
theorem at5_arg5 : W5 m ρ c (Proc.devRef .tc main_arg5) = A5 m c :=
  (s04_keep_arg5 (W4 m ρ c)).trans (at4_arg5 m ρ c)
theorem at5_arg6 : W5 m ρ c (Proc.devRef .tc main_arg6) = A6 m c :=
  (s04_keep_arg6 (W4 m ρ c)).trans (at4_arg6 m ρ c)
theorem at5_arg7 : W5 m ρ c (Proc.devRef .tc main_arg7) = A7 m c :=
  (s04_keep_arg7 (W4 m ρ c)).trans (at4_arg7 m ρ c)
theorem at5_arg8 : W5 m ρ c (Proc.devRef .tc main_arg8) = A8 m c :=
  (s04_keep_arg8 (W4 m ρ c)).trans (at4_arg8 m ρ c)
theorem at5_v10 : W5 m ρ c (Proc.devRef .tc main_v10) = nS m c :=
  (s04_v10 (W4 m ρ c)).trans (by rw [at4_v4 m ρ c]; rfl)
theorem at5_v12 : W5 m ρ c (Proc.devRef .tc main_v12) = nT m c :=
  (s04_v12 (W4 m ρ c)).trans (by rw [at4_v8 m ρ c]; rfl)
theorem at5_v13 : W5 m ρ c (Proc.devRef .tc main_v13) = colS m c :=
  (s04_v13 (W4 m ρ c)).trans (by rw [at4_v4 m ρ c]; rfl)

/-! ## What no later segment writes: the arguments and the factor vectors at every later boundary -/

theorem at6_arg1 : W6 m ρ c (Proc.devRef .tc main_arg1) = A1 m c :=
  (W6_of_ne m ρ c main_arg1 (by decide)).trans (at5_arg1 m ρ c)
theorem at7_arg1 : W7 m ρ c (Proc.devRef .tc main_arg1) = A1 m c :=
  (s1_keep_arg1 (W6 m ρ c)).trans (at6_arg1 m ρ c)
theorem at8_arg1 : W8 m ρ c (Proc.devRef .tc main_arg1) = A1 m c :=
  (W8_of_ne m ρ c main_arg1 (by decide)).trans (at7_arg1 m ρ c)
theorem at9_arg1 : W9 m ρ c (Proc.devRef .tc main_arg1) = A1 m c :=
  (s2_keep_arg1 (W8 m ρ c)).trans (at8_arg1 m ρ c)
theorem at10_arg1 : W10 m ρ c (Proc.devRef .tc main_arg1) = A1 m c :=
  (W10_of_ne m ρ c main_arg1 (by decide)).trans (at9_arg1 m ρ c)
theorem at11_arg1 : W11 m ρ c (Proc.devRef .tc main_arg1) = A1 m c :=
  (s3_keep_arg1 (W10 m ρ c)).trans (at10_arg1 m ρ c)
theorem at12_arg1 : W12 m ρ c (Proc.devRef .tc main_arg1) = A1 m c :=
  (W12_of_ne m ρ c main_arg1 (by decide)).trans (at11_arg1 m ρ c)
theorem at13_arg1 : W13 m ρ c (Proc.devRef .tc main_arg1) = A1 m c :=
  (s4_keep_arg1 (W12 m ρ c)).trans (at12_arg1 m ρ c)
theorem at14_arg1 : W14 m ρ c (Proc.devRef .tc main_arg1) = A1 m c :=
  (W14_of_ne m ρ c main_arg1 (by decide)).trans (at13_arg1 m ρ c)
theorem at6_arg2 : W6 m ρ c (Proc.devRef .tc main_arg2) = A2 m c :=
  (W6_of_ne m ρ c main_arg2 (by decide)).trans (at5_arg2 m ρ c)
theorem at7_arg2 : W7 m ρ c (Proc.devRef .tc main_arg2) = A2 m c :=
  (s1_keep_arg2 (W6 m ρ c)).trans (at6_arg2 m ρ c)
theorem at8_arg2 : W8 m ρ c (Proc.devRef .tc main_arg2) = A2 m c :=
  (W8_of_ne m ρ c main_arg2 (by decide)).trans (at7_arg2 m ρ c)
theorem at9_arg2 : W9 m ρ c (Proc.devRef .tc main_arg2) = A2 m c :=
  (s2_keep_arg2 (W8 m ρ c)).trans (at8_arg2 m ρ c)
theorem at10_arg2 : W10 m ρ c (Proc.devRef .tc main_arg2) = A2 m c :=
  (W10_of_ne m ρ c main_arg2 (by decide)).trans (at9_arg2 m ρ c)
theorem at11_arg2 : W11 m ρ c (Proc.devRef .tc main_arg2) = A2 m c :=
  (s3_keep_arg2 (W10 m ρ c)).trans (at10_arg2 m ρ c)
theorem at12_arg2 : W12 m ρ c (Proc.devRef .tc main_arg2) = A2 m c :=
  (W12_of_ne m ρ c main_arg2 (by decide)).trans (at11_arg2 m ρ c)
theorem at13_arg2 : W13 m ρ c (Proc.devRef .tc main_arg2) = A2 m c :=
  (s4_keep_arg2 (W12 m ρ c)).trans (at12_arg2 m ρ c)
theorem at14_arg2 : W14 m ρ c (Proc.devRef .tc main_arg2) = A2 m c :=
  (W14_of_ne m ρ c main_arg2 (by decide)).trans (at13_arg2 m ρ c)
theorem at6_v12 : W6 m ρ c (Proc.devRef .tc main_v12) = nT m c :=
  (W6_of_ne m ρ c main_v12 (by decide)).trans (at5_v12 m ρ c)
theorem at7_v12 : W7 m ρ c (Proc.devRef .tc main_v12) = nT m c :=
  (s1_keep_v12 (W6 m ρ c)).trans (at6_v12 m ρ c)
theorem at8_v12 : W8 m ρ c (Proc.devRef .tc main_v12) = nT m c :=
  (W8_of_ne m ρ c main_v12 (by decide)).trans (at7_v12 m ρ c)
theorem at9_v12 : W9 m ρ c (Proc.devRef .tc main_v12) = nT m c :=
  (s2_keep_v12 (W8 m ρ c)).trans (at8_v12 m ρ c)
theorem at10_v12 : W10 m ρ c (Proc.devRef .tc main_v12) = nT m c :=
  (W10_of_ne m ρ c main_v12 (by decide)).trans (at9_v12 m ρ c)
theorem at11_v12 : W11 m ρ c (Proc.devRef .tc main_v12) = nT m c :=
  (s3_keep_v12 (W10 m ρ c)).trans (at10_v12 m ρ c)
theorem at12_v12 : W12 m ρ c (Proc.devRef .tc main_v12) = nT m c :=
  (W12_of_ne m ρ c main_v12 (by decide)).trans (at11_v12 m ρ c)
theorem at13_v12 : W13 m ρ c (Proc.devRef .tc main_v12) = nT m c :=
  (s4_keep_v12 (W12 m ρ c)).trans (at12_v12 m ρ c)
theorem at14_v12 : W14 m ρ c (Proc.devRef .tc main_v12) = nT m c :=
  (W14_of_ne m ρ c main_v12 (by decide)).trans (at13_v12 m ρ c)
theorem at6_v10 : W6 m ρ c (Proc.devRef .tc main_v10) = nS m c :=
  (W6_of_ne m ρ c main_v10 (by decide)).trans (at5_v10 m ρ c)
theorem at7_v10 : W7 m ρ c (Proc.devRef .tc main_v10) = nS m c :=
  (s1_keep_v10 (W6 m ρ c)).trans (at6_v10 m ρ c)
theorem at8_v10 : W8 m ρ c (Proc.devRef .tc main_v10) = nS m c :=
  (W8_of_ne m ρ c main_v10 (by decide)).trans (at7_v10 m ρ c)
theorem at9_v10 : W9 m ρ c (Proc.devRef .tc main_v10) = nS m c :=
  (s2_keep_v10 (W8 m ρ c)).trans (at8_v10 m ρ c)
theorem at10_v10 : W10 m ρ c (Proc.devRef .tc main_v10) = nS m c :=
  (W10_of_ne m ρ c main_v10 (by decide)).trans (at9_v10 m ρ c)
theorem at11_v10 : W11 m ρ c (Proc.devRef .tc main_v10) = nS m c :=
  (s3_keep_v10 (W10 m ρ c)).trans (at10_v10 m ρ c)
theorem at12_v10 : W12 m ρ c (Proc.devRef .tc main_v10) = nS m c :=
  (W12_of_ne m ρ c main_v10 (by decide)).trans (at11_v10 m ρ c)
theorem at6_arg4 : W6 m ρ c (Proc.devRef .tc main_arg4) = A4 m c :=
  (W6_of_ne m ρ c main_arg4 (by decide)).trans (at5_arg4 m ρ c)
theorem at6_arg5 : W6 m ρ c (Proc.devRef .tc main_arg5) = A5 m c :=
  (W6_of_ne m ρ c main_arg5 (by decide)).trans (at5_arg5 m ρ c)
theorem at7_arg5 : W7 m ρ c (Proc.devRef .tc main_arg5) = A5 m c :=
  (s1_keep_arg5 (W6 m ρ c)).trans (at6_arg5 m ρ c)
theorem at8_arg5 : W8 m ρ c (Proc.devRef .tc main_arg5) = A5 m c :=
  (W8_of_ne m ρ c main_arg5 (by decide)).trans (at7_arg5 m ρ c)
theorem at9_arg5 : W9 m ρ c (Proc.devRef .tc main_arg5) = A5 m c :=
  (s2_keep_arg5 (W8 m ρ c)).trans (at8_arg5 m ρ c)
theorem at6_arg6 : W6 m ρ c (Proc.devRef .tc main_arg6) = A6 m c :=
  (W6_of_ne m ρ c main_arg6 (by decide)).trans (at5_arg6 m ρ c)
theorem at7_arg6 : W7 m ρ c (Proc.devRef .tc main_arg6) = A6 m c :=
  (s1_keep_arg6 (W6 m ρ c)).trans (at6_arg6 m ρ c)
theorem at8_arg6 : W8 m ρ c (Proc.devRef .tc main_arg6) = A6 m c :=
  (W8_of_ne m ρ c main_arg6 (by decide)).trans (at7_arg6 m ρ c)
theorem at9_arg6 : W9 m ρ c (Proc.devRef .tc main_arg6) = A6 m c :=
  (s2_keep_arg6 (W8 m ρ c)).trans (at8_arg6 m ρ c)
theorem at10_arg6 : W10 m ρ c (Proc.devRef .tc main_arg6) = A6 m c :=
  (W10_of_ne m ρ c main_arg6 (by decide)).trans (at9_arg6 m ρ c)
theorem at6_arg7 : W6 m ρ c (Proc.devRef .tc main_arg7) = A7 m c :=
  (W6_of_ne m ρ c main_arg7 (by decide)).trans (at5_arg7 m ρ c)
theorem at7_arg7 : W7 m ρ c (Proc.devRef .tc main_arg7) = A7 m c :=
  (s1_keep_arg7 (W6 m ρ c)).trans (at6_arg7 m ρ c)
theorem at8_arg7 : W8 m ρ c (Proc.devRef .tc main_arg7) = A7 m c :=
  (W8_of_ne m ρ c main_arg7 (by decide)).trans (at7_arg7 m ρ c)
theorem at9_arg7 : W9 m ρ c (Proc.devRef .tc main_arg7) = A7 m c :=
  (s2_keep_arg7 (W8 m ρ c)).trans (at8_arg7 m ρ c)
theorem at10_arg7 : W10 m ρ c (Proc.devRef .tc main_arg7) = A7 m c :=
  (W10_of_ne m ρ c main_arg7 (by decide)).trans (at9_arg7 m ρ c)
theorem at11_arg7 : W11 m ρ c (Proc.devRef .tc main_arg7) = A7 m c :=
  (s3_keep_arg7 (W10 m ρ c)).trans (at10_arg7 m ρ c)
theorem at12_arg7 : W12 m ρ c (Proc.devRef .tc main_arg7) = A7 m c :=
  (W12_of_ne m ρ c main_arg7 (by decide)).trans (at11_arg7 m ρ c)
theorem at13_arg7 : W13 m ρ c (Proc.devRef .tc main_arg7) = A7 m c :=
  (s4_keep_arg7 (W12 m ρ c)).trans (at12_arg7 m ρ c)
theorem at6_arg8 : W6 m ρ c (Proc.devRef .tc main_arg8) = A8 m c :=
  (W6_of_ne m ρ c main_arg8 (by decide)).trans (at5_arg8 m ρ c)
theorem at7_arg8 : W7 m ρ c (Proc.devRef .tc main_arg8) = A8 m c :=
  (s1_keep_arg8 (W6 m ρ c)).trans (at6_arg8 m ρ c)
theorem at8_arg8 : W8 m ρ c (Proc.devRef .tc main_arg8) = A8 m c :=
  (W8_of_ne m ρ c main_arg8 (by decide)).trans (at7_arg8 m ρ c)
theorem at9_arg8 : W9 m ρ c (Proc.devRef .tc main_arg8) = A8 m c :=
  (s2_keep_arg8 (W8 m ρ c)).trans (at8_arg8 m ρ c)
theorem at10_arg8 : W10 m ρ c (Proc.devRef .tc main_arg8) = A8 m c :=
  (W10_of_ne m ρ c main_arg8 (by decide)).trans (at9_arg8 m ρ c)
theorem at11_arg8 : W11 m ρ c (Proc.devRef .tc main_arg8) = A8 m c :=
  (s3_keep_arg8 (W10 m ρ c)).trans (at10_arg8 m ρ c)
theorem at12_arg8 : W12 m ρ c (Proc.devRef .tc main_arg8) = A8 m c :=
  (W12_of_ne m ρ c main_arg8 (by decide)).trans (at11_arg8 m ρ c)
theorem at13_arg8 : W13 m ρ c (Proc.devRef .tc main_arg8) = A8 m c :=
  (s4_keep_arg8 (W12 m ρ c)).trans (at12_arg8 m ρ c)
theorem at14_arg8 : W14 m ρ c (Proc.devRef .tc main_arg8) = A8 m c :=
  (W14_of_ne m ρ c main_arg8 (by decide)).trans (at13_arg8 m ρ c)

/-! ## Layer one -/

theorem out0 : W6 m ρ c (Proc.devRef .tc main_v14) = hw1 m c := by
  refine (W6_arr m ρ c 3).trans ((Region0.arr (V5 m ρ) c).trans ?_)
  show scaleMul (N := 100000) (Fi := 128) (Fo := 128) (W5 m ρ c (Proc.devRef .tc main_arg0)) (W5 m ρ c (Proc.devRef .tc main_v13)) (W5 m ρ c (Proc.devRef .tc main_arg3)) = hw1 m c
  rw [at5_arg0 m ρ c, at5_v13 m ρ c, at5_arg3 m ρ c, colS_eq m c]
  exact (pre128_eq _ _ _).symm

theorem w7_v24 : W7 m ρ c (Proc.devRef .tc main_v24) = g1 m c :=
  (s1_v24 (W6 m ρ c)).trans (by rw [out0 m ρ c, at6_arg1 m ρ c, at6_arg2 m ρ c]; rfl)

theorem w7_v25 : W7 m ρ c (Proc.devRef .tc main_v25) = colT m c :=
  (s1_v25 (W6 m ρ c)).trans (by rw [at6_v12 m ρ c]; rfl)

theorem w7_v26 : W7 m ρ c (Proc.devRef .tc main_v26) = rowB4 m c :=
  (s1_v26 (W6 m ρ c)).trans (by rw [at6_arg4 m ρ c]; rfl)

theorem out1 : W8 m ρ c (Proc.devRef .tc main_v27) = h1 m c := by
  refine (W8_arr m ρ c 3).trans ((Region1.arr (V7 m ρ) c).trans ?_)
  show reluStage (N := 100000) (Fo := 128) (W7 m ρ c (Proc.devRef .tc main_v24)) (W7 m ρ c (Proc.devRef .tc main_v25)) (W7 m ρ c (Proc.devRef .tc main_v26)) = h1 m c
  rw [w7_v24 m ρ c, w7_v25 m ρ c, w7_v26 m ρ c, colT_eq m c, rowB4_eq m c]
  exact (relu128_eq _ _ _).symm

/-! ## Layer two -/

theorem w9_v27 : W9 m ρ c (Proc.devRef .tc main_v27) = h1 m c :=
  (s2_keep_v27 (W8 m ρ c)).trans (out1 m ρ c)

theorem w9_v28 : W9 m ρ c (Proc.devRef .tc main_v28) = colS m c :=
  (s2_v28 (W8 m ρ c)).trans (by rw [at8_v10 m ρ c]; rfl)

theorem out2 : W10 m ρ c (Proc.devRef .tc main_v29) = hw2 m c := by
  refine (W10_arr m ρ c 3).trans ((Region2.arr (V9 m ρ) c).trans ?_)
  show scaleMul (N := 100000) (Fi := 128) (Fo := 128) (W9 m ρ c (Proc.devRef .tc main_v27)) (W9 m ρ c (Proc.devRef .tc main_v28)) (W9 m ρ c (Proc.devRef .tc main_arg5)) = hw2 m c
  rw [w9_v27 m ρ c, w9_v28 m ρ c, at9_arg5 m ρ c, colS_eq m c]
  exact (pre128_eq _ _ _).symm

theorem w11_v39 : W11 m ρ c (Proc.devRef .tc main_v39) = g2 m c :=
  (s3_v39 (W10 m ρ c)).trans (by rw [out2 m ρ c, at10_arg1 m ρ c, at10_arg2 m ρ c]; rfl)

theorem w11_v40 : W11 m ρ c (Proc.devRef .tc main_v40) = colT m c :=
  (s3_v40 (W10 m ρ c)).trans (by rw [at10_v12 m ρ c]; rfl)

theorem w11_v41 : W11 m ρ c (Proc.devRef .tc main_v41) = rowB6 m c :=
  (s3_v41 (W10 m ρ c)).trans (by rw [at10_arg6 m ρ c]; rfl)

theorem out3 : W12 m ρ c (Proc.devRef .tc main_v42) = h2 m c := by
  refine (W12_arr m ρ c 3).trans ((Region3.arr (V11 m ρ) c).trans ?_)
  show reluStage (N := 100000) (Fo := 128) (W11 m ρ c (Proc.devRef .tc main_v39)) (W11 m ρ c (Proc.devRef .tc main_v40)) (W11 m ρ c (Proc.devRef .tc main_v41)) = h2 m c
  rw [w11_v39 m ρ c, w11_v40 m ρ c, w11_v41 m ρ c, colT_eq m c, rowB6_eq m c]
  exact (relu128_eq _ _ _).symm

/-! ## Layer three -/

theorem w13_v42 : W13 m ρ c (Proc.devRef .tc main_v42) = h2 m c :=
  (s4_keep_v42 (W12 m ρ c)).trans (out3 m ρ c)

theorem w13_v43 : W13 m ρ c (Proc.devRef .tc main_v43) = colS m c :=
  (s4_v43 (W12 m ρ c)).trans (by rw [at12_v10 m ρ c]; rfl)

theorem out4 : W14 m ρ c (Proc.devRef .tc main_v44) = hw3 m c := by
  refine (W14_arr m ρ c 3).trans ((Region4.arr (V13 m ρ) c).trans ?_)
  show scaleMul (N := 100000) (Fi := 128) (Fo := 16) (W13 m ρ c (Proc.devRef .tc main_v42)) (W13 m ρ c (Proc.devRef .tc main_v43)) (W13 m ρ c (Proc.devRef .tc main_arg7)) = hw3 m c
  rw [w13_v42 m ρ c, w13_v43 m ρ c, at13_arg7 m ρ c, colS_eq m c]
  exact (pre16_eq _ _ _).symm

theorem w15_v54 : W15 m ρ c (Proc.devRef .tc main_v54) = g3 m c :=
  (s5_v54 (W14 m ρ c)).trans (by rw [out4 m ρ c, at14_arg1 m ρ c, at14_arg2 m ρ c]; rfl)

theorem w15_v55 : W15 m ρ c (Proc.devRef .tc main_v55) = colT m c :=
  (s5_v55 (W14 m ρ c)).trans (by rw [at14_v12 m ρ c]; rfl)

theorem w15_v56 : W15 m ρ c (Proc.devRef .tc main_v56) = rowB8 m c :=
  (s5_v56 (W14 m ρ c)).trans (by rw [at14_arg8 m ρ c]; rfl)

theorem out5 : W16 m ρ c (Proc.devRef .tc main_v57) = out m c := by
  refine (W16_arr m ρ c 3).trans ((Region5.arr (V15 m ρ) c).trans ?_)
  show logisticStage (N := 100000) (Fo := 16) (W15 m ρ c (Proc.devRef .tc main_v54)) (W15 m ρ c (Proc.devRef .tc main_v55)) (W15 m ρ c (Proc.devRef .tc main_v56)) = out m c
  rw [w15_v54 m ρ c, w15_v55 m ρ c, w15_v56 m ρ c, colT_eq m c, rowB8_eq m c]
  exact (logistic16_eq _ _ _).symm

/-- The result buffer at the end of the run is the reference's network of the argument arrays. -/
theorem value : W16 m ρ c (Proc.devRef .tc main_v57)
    = net (A0 m c) (A1 m c) (A2 m c) (A3 m c) (A4 m c) (A5 m c) (A6 m c) (A7 m c) (A8 m c) :=
  (out5 m ρ c).trans (out_eq m c)

end Cert.KernelIdeal.Chain

end
-- ==== Proof.lean ====
/-
  A three-layer graph convolution on 100000 nodes and 1600000 edges. Each layer scales the node features by the
  out-degree factor of the node, multiplies by the layer's weights, sums the transformed rows of every edge's source
  into the edge's destination, scales by the in-degree factor, adds the bias and applies the activation (a
  rectifier in the first two layers; the logistic function plus 1e-8 in the last). The kernel computes the two dense
  stages of each layer on blocks of 10000 rows — the matrix product fed with values rounded to bf16 — and leaves the
  gather and the scatter-add to the host; the reference computes everything on the host.

  At the ideal values (floats as extended reals, every operation exact, a change of format the identity) the two
  programs are the same function of the arguments, stage by stage:
  * a region of the first kind leaves entry (r, q) of its output at ∑ k, (h (r, k) * s r) * W (k, q), which is the
    host's dot_general of the scaled features with the weights (the vector unit's product into a zero accumulator
    and the host's product are the same sum over k);
  * a region of the second kind leaves max (a (r, q) * s r + b q) 0, or logistic (a (r, q) * s r + b q) + ε, which is
    the host's maximum, or the host's 1 / (1 + exp (-x)) + ε: the logistic function is that quotient by definition;
  * the degree factors, the gathers and the scatter-adds are the same host operations in both programs.
  No law beyond these identities is used, so the precondition (finite inputs) is never opened.

  The three frames: the kernel's two programs by their generated frame proofs, the reference's by its generated run.
  The idealization rewrote nothing, so there is nothing to preserve. The value claim: the kernel's run with its result
  buffer kept (RunValue), that buffer read as the reference's network of the arguments (Chain), and the reference's
  run with its result term read as the same network (RefValue).
-/
import proofs.«155195_j18476949307699_1_alg».proof.Defs
import proofs.«155195_j18476949307699_1_alg».proof.Proof.Gen.Kernel
import proofs.«155195_j18476949307699_1_alg».proof.Proof.Gen.Kernel.Frame
import proofs.«155195_j18476949307699_1_alg».proof.Proof.Gen.KernelIdeal
import proofs.«155195_j18476949307699_1_alg».proof.Proof.Gen.KernelIdeal.Frame
import proofs.«155195_j18476949307699_1_alg».proof.Proof.Gen.ReferenceIdeal
import proofs.«155195_j18476949307699_1_alg».proof.Proof.Gen.ReferenceIdeal.Run
import proofs.«155195_j18476949307699_1_alg».proof.Proof.Gen.Pre_finite_inputs
import proofs.«155195_j18476949307699_1_alg».proof.Proof.RunValue
import proofs.«155195_j18476949307699_1_alg».proof.Proof.Chain
import proofs.«155195_j18476949307699_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the three-layer network of the argument arrays, which agree. -/
theorem algebraic : Cert.algebraic_KernelIdeal_ReferenceIdeal := by
  intro m ρ m' ρ' _ hagree
  refine ⟨fun c => Cert.ReferenceIdeal.RefValue.net (Cert.KernelIdeal.Chain.A0 m c) (Cert.KernelIdeal.Chain.A1 m c) (Cert.KernelIdeal.Chain.A2 m c) (Cert.KernelIdeal.Chain.A3 m c) (Cert.KernelIdeal.Chain.A4 m c) (Cert.KernelIdeal.Chain.A5 m c) (Cert.KernelIdeal.Chain.A6 m c) (Cert.KernelIdeal.Chain.A7 m c) (Cert.KernelIdeal.Chain.A8 m c), ?_, ?_⟩
  · exact (θ_run Cert.KernelIdeal.defs _ _).mono
      (fun r h c => ⟨(h c).1.trans (Cert.KernelIdeal.Chain.value m ρ c), (h c).2⟩) (Cert.KernelIdeal.RunValue.run m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.RefValue.res_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
